-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x4096x1024 .f32) (main_arg1 : FVec F S1024x1024 .f32) (main_arg2 : FVec F S1024x1024 .f32) (main_arg3 : FVec F S1024x1024 .f32) (main_arg4 : FVec F S1024 .f32) (main_arg5 : FVec F S1024 .f32) (main_arg6 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S1x1024x1024 : Shape := ⟨3, ![1, 1024, 1024]⟩
abbrev S1x1024 : Shape := ⟨2, ![1, 1024]⟩
abbrev S1x256x1024 : Shape := ⟨3, ![1, 256, 1024]⟩
abbrev S4096x1024 : Shape := ⟨2, ![4096, 1024]⟩
abbrev S2 : Shape := ⟨1, ![2]⟩
abbrev S1 : Shape := ⟨1, ![1]⟩
abbrev S_ : Shape := ⟨0, ![]⟩
abbrev S1x4096x1024 : Shape := ⟨3, ![1, 4096, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 17
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S4x4096x1024, .bf16⟩
  | .hbm, ⟨14, _⟩ => ⟨S4x4096x1024, .bf16⟩
  | .hbm, ⟨15, _⟩ => ⟨S4x4096x1024, .bf16⟩
  | .hbm, ⟨16, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .f32⟩
  | .local _ .vmem, ⟨17, _⟩ => ⟨S1x256x1024, .f32⟩
  | .local _ .vmem, ⟨18, _⟩ => ⟨S4096x1024, .bf16⟩
  | .local _ .vmem, ⟨19, _⟩ => ⟨S4096x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![4, 16], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_off1 (i : grid1.Coords) : Fin 3 → Nat :=
  let arg0 : BitVec 32 := BitVec.ofNat 32 (i 0).val
  let c0_i32_15 : BitVec 32 := 0#32
  let c0_i32_16 : BitVec 32 := 0#32
  ![arg0.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  transposes_S1024x1024_S1024x1024_1_0 : S1024x1024.Transposes [1, 0] S1024x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  inb_S2_S1_0 : ∀ a, (![0] : Fin 1 → Nat) a + S1.size a ≤ S2.size a
  squeezes_S1_S_ : S1.Squeezes S_
  squeezes_S1x4096x1024_S4096x1024 : S1x4096x1024.Squeezes S4096x1024
  inb_S2_S1_1 : ∀ a, (![1] : Fin 1 → Nat) a + S1.size a ≤ S2.size a
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S4096x1024_S4096x1024_0_0 : ∀ a, (![0, 0] : Fin 2 → Nat) a + S4096x1024.size a ≤ S4096x1024.size a
  h_S4096x1024 : 0 < S4096x1024.numel
  reduces_S256x4096_S256 : S256x4096.Reduces [1] S256
  shapeCasts_S256_S256x1 : S256.ShapeCasts S256x1
  broadcasts_S256x1_S256x4096 : S256x1.Broadcasts S256x4096
  shapeCasts_S256x1024_S1x256x1024 : S256x1024.ShapeCasts S1x256x1024
  dot_S1024x1024_S1024x1024_S1024x1024_1_0_0_1_n_n_wf : DotDims.WF S1024x1024 S1024x1024 S1024x1024 [1] [0] [0] [1] [] []
  dot_S256x1024_S4096x1024_S256x4096_1_1_0_0_n_n_wf : DotDims.WF S256x1024 S4096x1024 S256x4096 [1] [1] [0] [0] [] []
  dot_S256x4096_S4096x1024_S256x1024_1_0_0_1_n_n_wf : DotDims.WF S256x4096 S4096x1024 S256x1024 [1] [0] [0] [1] [] []
  hcc1_scratch2 : 18 + S2.numel ≤ 20
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x1024.size a ≤ S4x4096x1024.size a
  hwx0_7 : ∀ i : grid0.Coords, EltTy.bits .bf16 = 32 ∨ (Rect.block (s := S4x4096x1024) S1x1024x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x1024.size a ≤ S4x4096x1024.size a
  hwx0_8 : ∀ i : grid0.Coords, EltTy.bits .bf16 = 32 ∨ (Rect.block (s := S4x4096x1024) S1x1024x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x1024.size a ≤ S4x4096x1024.size a
  hwx0_9 : ∀ i : grid0.Coords, EltTy.bits .bf16 = 32 ∨ (Rect.block (s := S4x4096x1024) S1x1024x1024.size (cc0_transform_9 i) (hinb0_9 i)).WholeWords (EltTy.packing .bf16)
  hrank1 : 0 < grid1.rank
  k1_off1_inb : ∀ i : grid1.Coords, ∀ (k1_h1 : k1_cond1 i = 1#1), ∀ a, (k1_off1 i) a + S1x4096x1024.size a ≤ S4x4096x1024.size a
  k1_off1_wordsbf16 : ∀ i : grid1.Coords, ∀ (k1_h1 : k1_cond1 i = 1#1), (Rect.unit (s := S4x4096x1024) (k1_off1 i) S1x4096x1024.size (k1_off1_inb i k1_h1)).WholeWords (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x4096x1024.size a
  hwx1_0 : ∀ i : grid1.Coords, EltTy.bits .bf16 = 32 ∨ (Rect.block (s := S4x4096x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_3 i = cc1_transform_3 i'
  hinb1_1 : ∀ (i : grid1.Coords) a, (cc1_transform_3 i a + 1) * S1x256x1024.size a ≤ S4x4096x1024.size a
  hwx1_1 : ∀ i : grid1.Coords, EltTy.bits .f32 = 32 ∨ (Rect.block (s := S4x4096x1024) S1x256x1024.size (cc1_transform_3 i) (hinb1_1 i)).WholeWords (EltTy.packing .f32)

variable [Facts₀]

abbrev cc1_scratch2 : DmaSems sig S2 := SemArray.consecutive 18 S2 hcc1_scratch2
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1x1024x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1x1024x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S1x1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6_0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x256x1024.size cc1_transform_3 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4x4096x1024, .f32⟩
  | .hbm, ⟨8, _⟩ => ⟨S1x1x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S1x1x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.ProjBodyK.lean ====
/- The kernel half of region 0 (the projection kernel `cc0__proj_kernel`, pallas_call 0), at a parameter `V` — the
   TensorCore's buffer contents when the region is entered —, for any float instance `F`: each window's block at a point,
   what the body leaves in each of the three output windows' buffers as a function of the seven input blocks, the body's
   separation-logic triple, the pipeline's proof data over the class-A invariant, and the body obligation at every
   point of the 4×4 grid. -/
import proofs.«148255_j55224689492787_2_alg».proof.Proof.Gen.Kernel.Launch
import proofs.«148255_j55224689492787_2_alg».proof.Proof.Gen.Kernel.Skeleton
import proofs.«148255_j55224689492787_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of extent 1024 is decided coordinate by coordinate: a recursion 1024 deep
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: the parameter the region's half is stated at
variable (V : (c : Dev nD) → (b : Ref sig .tc) → Buf (Elt F) ((c : Thread nD τ).loc b))

/-! # REGION 0 of @main: custom_call 0, `cc0__proj_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): where the window is not
    fetched its index has not moved, and the window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): where the window is not
    fetched its index has not moved, and the window is uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): where the window is not
    fetched its index has not moved, and the window is uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): where the window is not
    fetched its index has not moved, and the window is uncut and never idle. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): where the window is not
    fetched its index has not moved, and the window is uncut and never idle. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): where the window is not
    fetched its index has not moved, and the window is uncut and never idle. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): where the window is not
    fetched its index has not moved, and the window is uncut and never idle. -/
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole x block / output block, the whole bias vector, the whole weight matrix. -/
abbrev r0_0 : Rect S1x1024x1024 := Rect.unit (s := S1x1024x1024) ![0, 0, 0] S1x1024x1024.size inb_S1x1024x1024_S1x1024x1024_0_0_0
abbrev r0_1 : Rect S1024 := Rect.unit (s := S1024) ![0] S1024.size inb_S1024_S1024_0
abbrev r0_2 : Rect S1024x1024 := Rect.unit (s := S1024x1024) ![0, 0] S1024x1024.size inb_S1024x1024_S1024x1024_0_0

/-! ## What the body leaves in each output window's buffer -/

/-- Window 7's staging buffer after the body, from the input windows' blocks: its one store as a piece over
    the whole buffer, the payload the skeleton's. -/
def out0_7 (x0 : Vec F S1x1024x1024 .f32) (x1 : Vec F S1024x1024 .bf16) (x2 : Vec F S1024x1024 .bf16) (x3 : Vec F S1024x1024 .bf16) (x4 : Vec F S1024 .f32) (x5 : Vec F S1024 .f32) (x6 : Vec F S1024 .f32) : Vec F S1x1024x1024 .bf16 :=
  View.canon [⟨r0_0, k0_pay3 (View.ld x0 r0_0) (View.ld x4 r0_1) (View.ld x1 r0_2)⟩]

/-- Its one store is of the whole buffer (checked by evaluation), so it covers it. -/
theorem cover0_7 (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

/-- Window 8's staging buffer after the body, from the input windows' blocks: its one store as a piece over
    the whole buffer, the payload the skeleton's. -/
def out0_8 (x0 : Vec F S1x1024x1024 .f32) (x1 : Vec F S1024x1024 .bf16) (x2 : Vec F S1024x1024 .bf16) (x3 : Vec F S1024x1024 .bf16) (x4 : Vec F S1024 .f32) (x5 : Vec F S1024 .f32) (x6 : Vec F S1024 .f32) : Vec F S1x1024x1024 .bf16 :=
  View.canon [⟨r0_0, k0_pay4 (View.ld x0 r0_0) (View.ld x5 r0_1) (View.ld x2 r0_2)⟩]

/-- Its one store is of the whole buffer (checked by evaluation), so it covers it. -/
theorem cover0_8 (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

/-- Window 9's staging buffer after the body, from the input windows' blocks: its one store as a piece over
    the whole buffer, the payload the skeleton's. -/
def out0_9 (x0 : Vec F S1x1024x1024 .f32) (x1 : Vec F S1024x1024 .bf16) (x2 : Vec F S1024x1024 .bf16) (x3 : Vec F S1024x1024 .bf16) (x4 : Vec F S1024 .f32) (x5 : Vec F S1024 .f32) (x6 : Vec F S1024 .f32) : Vec F S1x1024x1024 .bf16 :=
  View.canon [⟨r0_0, k0_pay1 (k0_pay5 (View.ld x0 r0_0) (View.ld x6 r0_1) (View.ld x3 r0_2))⟩]

/-- Its one store is of the whole buffer (checked by evaluation), so it covers it. -/
theorem cover0_9 (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

/-! ## The body's triple -/

set_option maxHeartbeats 4000000 in
/-- The kernel body on whole staging memrefs, the inputs' at read contents `xW` and the outputs' at anything, runs to
    the continuation holding the inputs' as they were and each output's at `out0_W` of the inputs': the printed functions
    are their skeletons, which are run statement by statement, through the part call. Each output buffer is read once
    before it is stored (a value nothing uses) and stored whole once. -/
theorem sound_kernel0 (c : Dev nD) (E : Set ℕ) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x1024x1024 .bf16) (harg11 : arg11.IsWhole)
    (x0 : Vec F S1x1024x1024 .f32) (x1 : Vec F S1024x1024 .bf16) (x2 : Vec F S1024x1024 .bf16) (x3 : Vec F S1024x1024 .bf16) (x4 : Vec F S1024 .f32) (x5 : Vec F S1024 .f32) (x6 : Vec F S1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6) ∗ owns (c : Thread nD τ) arg10 fullShare (out0_8 x0 x1 x2 x3 x4 x5 x6) ∗ owns (c : Thread nD τ) arg11 fullShare (out0_9 x0 x1 x2 x3 x4 x5 x6)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The pipeline's proof data -/

/-- The proof data of pipeline 0 on core `c`: the arrays as the region finds them (`V`); after the body at
    point `t` each input's buffer at its block and each output's at `out0_W` of the input blocks; the invariant the
    scoped rest and the pseudo-random generator's register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the invariant and
    the core's owed counts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.AttnBodyK.lean ====
import proofs.«148255_j55224689492787_2_alg».proof.Proof.Gen.Kernel.Launch
import proofs.«148255_j55224689492787_2_alg».proof.Proof.Gen.Kernel.Skeleton
import proofs.«148255_j55224689492787_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The attention kernel's region, at the buffer contents `V` it is entered from

## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch: keys and values are copied in at the first query tile of a batch -/

abbrev cond1_0 (i : grid1.Coords) : Prop := k1_cond1 i = 1#1
/-- The copy happens exactly at the points whose query-tile coordinate is 0: the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-! ## Memrefs the body is called with -/

abbrev VO1_1 : View sig .tc .vmem S1x256x1024 .f32 := (Memref.whole cc1_stg1_0 : Memref sig .tc .vmem S1x256x1024 .f32).view
abbrev ms1_0 (t : Fin cfg1.N) : Memref sig .tc .vmem S1x256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1024 .f32 := win1_1.stage (cfg1.slots t 1)
abbrev hs1_1 (t : Fin cfg1.N) : (ms1_1 t).IsWhole := hstage1_1 ((cfg1.slots t 1).cast nbuf1_1)
/-- The two scratch buffers (keys, values of the current batch). -/
abbrev scM1_0 : Memref sig .tc .vmem S4096x1024 .bf16 := Memref.whole cc1_scratch0
abbrev scM1_1 : Memref sig .tc .vmem S4096x1024 .bf16 := Memref.whole cc1_scratch1
abbrev VS1_0 : View sig .tc .vmem S4096x1024 .bf16 := scM1_0.view
abbrev VS1_1 : View sig .tc .vmem S4096x1024 .bf16 := scM1_1.view
/-- The two arrays left in HBM that the body copies from (all keys, all values). -/
abbrev hbM1_0 : Memref sig .tc .hbm S4x4096x1024 .bf16 := Memref.whole main_v6_1
abbrev hbM1_1 : Memref sig .tc .hbm S4x4096x1024 .bf16 := Memref.whole main_v6_2
abbrev HbBuf1 (c : Dev nD) {sp : Space} {S : Shape} {e : EltTy} (M : Memref sig .tc sp S e) : Type := Buf (Elt F) (M.view.loc (c : Thread nD τ))
abbrev hbPt1 (c : Dev nD) {sp : Space} {S : Shape} {e : EltTy} (M : Memref sig .tc sp S e) (f : HbBuf1 (F := F) c M) : sProp 𝕄 :=
  M.view.loc (c : Thread nD τ) ↦{fullShare} f

/-- The body's two DMA semaphore cells. -/
abbrev osem1 : Fin 2 → SemLoc sig := fun j => (![SemLoc.dma 18, SemLoc.dma 19] : Fin 2 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 18) 0 ∗ semVal ((c : Thread nD τ), SemLoc.dma 19) 0) := by
  rw [Pipeline.ownSems0_eq_of_list c osem1 [0, 1] (by decide) (by decide)]; rfl
def H1 : Finset (Ref sig .tc) := {main_v6_1, main_v6_2}
theorem H1_sub : H1 ⊆ Pipeline.restRefs sig spec1 := by decide
theorem hbmPts1_eq (c : Dev nD) :
    (bigSep H1 (fun b => ((c : Thread nD τ).loc b) ↦{fullShare} V c b) : sProp 𝕄) = iprop(hbPt1 c hbM1_0 (V c main_v6_1) ∗ hbPt1 c hbM1_1 (V c main_v6_2)) := by
  rw [BI.bigSep_eq_bigSepL_of_eq [main_v6_1, main_v6_2] (by decide) (by decide)]; rfl

/-! ## The body, case by case -/

set_option maxHeartbeats 1000000 in
/-- CASE A (first query tile of a batch). On whole memrefs — the query block at `x0`, the output and both scratch
    buffers at anything, both cells at zero, the key and value arrays whole at `fh0`, `fh1` — the body runs; it leaves the
    query block, the arrays and the cells as they were, and the output and both scratch buffers with the pieces named here written. -/
noncomputable def kernelRun1_A (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : cond1_0 i)
    (x0 : Vec F S1x256x1024 .bf16) (fh0 : HbBuf1 (F := F) c hbM1_0) (fh1 : HbBuf1 (F := F) c hbM1_1) :
    Σ' (L1 : List (View.Piece (Elt F) S1x256x1024 .f32)) (LS0 : List (View.Piece (Elt F) S4096x1024 .bf16)), { LS1 : List (View.Piece (Elt F) S4096x1024 .bf16) //
      ∀ (W : Waits sig Unit) (K : PUnit → sProp 𝕄),
        iprop(owns (c : Thread nD τ) arg2 fullShare x0 ∗ (∃ d, owns (c : Thread nD τ) arg5 fullShare d) ∗ (∃ d, owns (c : Thread nD τ) arg6 fullShare d) ∗ (∃ d, owns (c : Thread nD τ) arg7 fullShare d)
            ∗ semVal ((c : Thread nD τ), SemLoc.dma 18) 0 ∗ semVal ((c : Thread nD τ), SemLoc.dma 19) 0 ∗ hbPt1 c hbM1_0 fh0 ∗ hbPt1 c hbM1_1 fh1 ∗ owes (c : Thread nD τ) 0 W
            ∗ (iprop(owns (c : Thread nD τ) arg2 fullShare x0 ∗ (∃ f, arg5.view.loc (c : Thread nD τ) ↦[arg5.view.set]{fullShare} arg5.view.writes (Elt F) f L1)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)
                ∗ semVal ((c : Thread nD τ), SemLoc.dma 18) 0 ∗ semVal ((c : Thread nD τ), SemLoc.dma 19) 0 ∗ hbPt1 c hbM1_0 fh0 ∗ hbPt1 c hbM1_1 fh1 ∗ (∃ W', owes (c : Thread nD τ) 0 W')) -∗ K ⟨⟩))
          ⊢ wp frame (wpE (defs₀ (F := F)) Variants.none c none) Set.univ (cc1__attn_kernel i arg2 harg2 (Memref.whole main_v6_1) (Memref.isWhole_whole _) (Memref.whole main_v6_2) (Memref.isWhole_whole _) arg5 harg5 arg6 harg6 arg7 harg7 cc1_scratch2) K } := by
  refine ⟨?_, ?_, ?_, fun W K => ?run⟩
  case run =>
    simp only [cc1__attn_kernel_eq_skeleton]; unfold cc1__attn_kernel_skel
    unfold owns
    iintro ⟨⟨%f0, %hf0, H0⟩, ⟨%d1, %f1, -, H1⟩, ⟨%ds0, %fs0, -, HS0⟩, ⟨%ds1, %fs1, -, HS1⟩, Hq0, Hq1, Hh0, Hh1, HW, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    isplitl [HS0]; · iexists _; iexact HS0
    isplitl [HS1]; · iexists _; iexact HS1
    isplitl [Hq0]; · iexact Hq0
    isplitl [Hq1]; · iexact Hq1
    isplitl [Hh0]; · iexact Hh0
    isplitl [Hh1]; · iexact Hh1
    iexists _; iexact HW

set_option maxHeartbeats 1000000 in
/-- CASE B (a later query tile of the batch): no copy. The scratch buffers hold `xs0`, `xs1` and are left as they were;
    the output has the pieces named here written. -/
noncomputable def kernelRun1_B (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : ¬cond1_0 i)
    (x0 : Vec F S1x256x1024 .bf16) (xs0 xs1 : Vec F S4096x1024 .bf16) :
    { L1 : List (View.Piece (Elt F) S1x256x1024 .f32) //
      ∀ (K : PUnit → sProp 𝕄),
        iprop(owns (c : Thread nD τ) arg2 fullShare x0 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ (∃ f, arg5.view.loc (c : Thread nD τ) ↦[arg5.view.set]{fullShare} arg5.view.writes (Elt F) f L1)
                ∗ owns (c : Thread nD τ) arg6 fullShare xs0 ∗ owns (c : Thread nD τ) arg7 fullShare xs1) -∗ K ⟨⟩))
          ⊢ wp frame (wpE (defs₀ (F := F)) Variants.none c none) Set.univ (cc1__attn_kernel i arg2 harg2 (Memref.whole main_v6_1) (Memref.isWhole_whole _) (Memref.whole main_v6_2) (Memref.isWhole_whole _) arg5 harg5 arg6 harg6 arg7 harg7 cc1_scratch2) K } := by
  refine ⟨?_, fun K => ?run⟩
  case run =>
    simp only [cc1__attn_kernel_eq_skeleton]; unfold cc1__attn_kernel_skel
    unfold owns
    iintro ⟨⟨%f0, %hf0, H0⟩, ⟨%d1, %f1, -, H1⟩, ⟨%fs0, %hfs0, HS0⟩, ⟨%fs1, %hfs1, HS1⟩, Hk⟩
    obtain rfl := harg2.eq_unread hf0; obtain rfl := harg6.eq_unread hfs0; obtain rfl := harg7.eq_unread hfs1
    sl_exec (disch := first | exact hc0)
    sl_step
    iapply Hk
    isplitl [H0]
    · iexists _; isplitr; · ipureintro; exact harg2.read_unread _
      iexact H0
    isplitl [H1]; · iexists _; iexact H1
    isplitl [HS0]
    · iexists _; isplitr; · ipureintro; exact harg6.read_unread _
      iexact HS0
    iexists _; isplitr; · ipureintro; exact harg7.read_unread _
    iexact HS1

/-! ## What each case leaves -/

theorem cover1_A_1 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : cond1_0 i) (x0 : Vec F S1x256x1024 .bf16) (fh0 : HbBuf1 (F := F) c hbM1_0) (fh1 : HbBuf1 (F := F) c hbM1_1) (y : S1x256x1024.Idx) :
    ∃ pc ∈ (kernelRun1_A c i arg2 harg2 arg5 harg5 arg6 harg6 arg7 harg7 hc0 x0 fh0 fh1).1, y ∈ pc.1.set :=
  View.cover_of_tiledL (kernelRun1_A c i arg2 harg2 arg5 harg5 arg6 harg6 arg7 harg7 hc0 x0 fh0 fh1).1 S1x256x1024.size (by sl_kernel_rfl) y
/-- The output block after case A: its pieces read back. -/
def out1_A_1 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : cond1_0 i) (x0 : Vec F S1x256x1024 .bf16) (fh0 : HbBuf1 (F := F) c hbM1_0) (fh1 : HbBuf1 (F := F) c hbM1_1) : Vec F S1x256x1024 .f32 :=
  VO1_1.read (Elt F) (VO1_1.writes (Elt F) VO1_1.junk (kernelRun1_A c i arg2 harg2 arg5 harg5 arg6 harg6 arg7 harg7 hc0 x0 fh0 fh1).1)
theorem scover1_A_0 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : cond1_0 i) (x0 : Vec F S1x256x1024 .bf16) (fh0 : HbBuf1 (F := F) c hbM1_0) (fh1 : HbBuf1 (F := F) c hbM1_1) (y : S4096x1024.Idx) :
    ∃ pc ∈ (kernelRun1_A c i arg2 harg2 arg5 harg5 arg6 harg6 arg7 harg7 hc0 x0 fh0 fh1).2.1, y ∈ pc.1.set :=
  View.cover_of_tiledL (kernelRun1_A c i arg2 harg2 arg5 harg5 arg6 harg6 arg7 harg7 hc0 x0 fh0 fh1).2.1 S4096x1024.size (by sl_kernel_rfl) y
/-- The key scratch after case A: the copied slab. -/
def sout1_A_0 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : cond1_0 i) (x0 : Vec F S1x256x1024 .bf16) (fh0 : HbBuf1 (F := F) c hbM1_0) (fh1 : HbBuf1 (F := F) c hbM1_1) : Vec F S4096x1024 .bf16 :=
  VS1_0.read (Elt F) (VS1_0.writes (Elt F) VS1_0.junk (kernelRun1_A c i arg2 harg2 arg5 harg5 arg6 harg6 arg7 harg7 hc0 x0 fh0 fh1).2.1)
theorem scover1_A_1 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : cond1_0 i) (x0 : Vec F S1x256x1024 .bf16) (fh0 : HbBuf1 (F := F) c hbM1_0) (fh1 : HbBuf1 (F := F) c hbM1_1) (y : S4096x1024.Idx) :
    ∃ pc ∈ (kernelRun1_A c i arg2 harg2 arg5 harg5 arg6 harg6 arg7 harg7 hc0 x0 fh0 fh1).2.2.1, y ∈ pc.1.set :=
  View.cover_of_tiledL (kernelRun1_A c i arg2 harg2 arg5 harg5 arg6 harg6 arg7 harg7 hc0 x0 fh0 fh1).2.2.1 S4096x1024.size (by sl_kernel_rfl) y
/-- The value scratch after case A: the copied slab. -/
def sout1_A_1 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : cond1_0 i) (x0 : Vec F S1x256x1024 .bf16) (fh0 : HbBuf1 (F := F) c hbM1_0) (fh1 : HbBuf1 (F := F) c hbM1_1) : Vec F S4096x1024 .bf16 :=
  VS1_1.read (Elt F) (VS1_1.writes (Elt F) VS1_1.junk (kernelRun1_A c i arg2 harg2 arg5 harg5 arg6 harg6 arg7 harg7 hc0 x0 fh0 fh1).2.2.1)
theorem cover1_B_1 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : ¬cond1_0 i) (x0 : Vec F S1x256x1024 .bf16) (xs0 xs1 : Vec F S4096x1024 .bf16) (y : S1x256x1024.Idx) :
    ∃ pc ∈ (kernelRun1_B c i arg2 harg2 arg5 harg5 arg6 harg6 arg7 harg7 hc0 x0 xs0 xs1).1, y ∈ pc.1.set :=
  View.cover_of_tiledL (kernelRun1_B c i arg2 harg2 arg5 harg5 arg6 harg6 arg7 harg7 hc0 x0 xs0 xs1).1 S1x256x1024.size (by sl_kernel_rfl) y
/-- The output block after case B. -/
def out1_B_1 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : ¬cond1_0 i) (x0 : Vec F S1x256x1024 .bf16) (xs0 xs1 : Vec F S4096x1024 .bf16) : Vec F S1x256x1024 .f32 :=
  VO1_1.read (Elt F) (VO1_1.writes (Elt F) VO1_1.junk (kernelRun1_B c i arg2 harg2 arg5 harg5 arg6 harg6 arg7 harg7 hc0 x0 xs0 xs1).1)

/-! ## Point by point -/

/-- After the body at position `n`: the output block, the key scratch, the value scratch. At a first query tile
    (n ≡ 0 mod 16) the scratch is freshly copied; otherwise it is what the point before left. -/
def outsAt1 (c : Dev nD) : (n : ℕ) → n < cfg1.N → Vec F S1x256x1024 .f32 × Vec F S4096x1024 .bf16 × Vec F S4096x1024 .bf16
  | 0, hn => (out1_A_1 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (iblk1 V c 0 ⟨0, hn⟩) (V c main_v6_1) (V c main_v6_2), sout1_A_0 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (iblk1 V c 0 ⟨0, hn⟩) (V c main_v6_1) (V c main_v6_2), sout1_A_1 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (iblk1 V c 0 ⟨0, hn⟩) (V c main_v6_1) (V c main_v6_2))
  | n + 1, hn =>
    if h0 : (n + 1) % 16 = 0 then
      (out1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (iblk1 V c 0 ⟨n + 1, hn⟩) (V c main_v6_1) (V c main_v6_2), sout1_A_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (iblk1 V c 0 ⟨n + 1, hn⟩) (V c main_v6_1) (V c main_v6_2), sout1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (iblk1 V c 0 ⟨n + 1, hn⟩) (V c main_v6_1) (V c main_v6_2))
    else
      (out1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) (iblk1 V c 0 ⟨n + 1, hn⟩) (outsAt1 c n (Nat.lt_of_succ_lt hn)).2.1 (outsAt1 c n (Nat.lt_of_succ_lt hn)).2.2, (outsAt1 c n (Nat.lt_of_succ_lt hn)).2.1, (outsAt1 c n (Nat.lt_of_succ_lt hn)).2.2)

theorem outsAt1_A (c : Dev nD) (t : Fin cfg1.N) (h0 : t.val % 16 = 0) :
    outsAt1 V c t.val t.isLt = (out1_A_1 c (grid1.coords t) (ms1_0 t) (hs1_0 t) (ms1_1 t) (hs1_1 t) scM1_0 (Memref.isWhole_whole _) scM1_1 (Memref.isWhole_whole _) ((hcond1_0 t).mpr h0) (iblk1 V c 0 t) (V c main_v6_1) (V c main_v6_2), sout1_A_0 c (grid1.coords t) (ms1_0 t) (hs1_0 t) (ms1_1 t) (hs1_1 t) scM1_0 (Memref.isWhole_whole _) scM1_1 (Memref.isWhole_whole _) ((hcond1_0 t).mpr h0) (iblk1 V c 0 t) (V c main_v6_1) (V c main_v6_2), sout1_A_1 c (grid1.coords t) (ms1_0 t) (hs1_0 t) (ms1_1 t) (hs1_1 t) scM1_0 (Memref.isWhole_whole _) scM1_1 (Memref.isWhole_whole _) ((hcond1_0 t).mpr h0) (iblk1 V c 0 t) (V c main_v6_1) (V c main_v6_2)) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = (out1_B_1 c (grid1.coords t) (ms1_0 t) (hs1_0 t) (ms1_1 t) (hs1_1 t) scM1_0 (Memref.isWhole_whole _) scM1_1 (Memref.isWhole_whole _) (fun h => h0 ((hcond1_0 t).mp h)) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, (outsAt1 V c (t.val - 1) (Nat.lt_of_le_of_lt (Nat.sub_le _ _) t.isLt)).2.1, (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The invariant between points -/

/-- The invariant of a body that copies from the two arrays by its own DMA, conjunct by conjunct: the other scoped
    buffers and the two scratch buffers at anything, the generator register, both cells at zero, both arrays whole. -/
theorem PhiD1_eq (c : Dev nD) :
    (Pipeline.ΦD osem1 spec1 H1 V c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d)) ∗ (∃ r, prngReg c r) ∗ iprop(semVal ((c : Thread nD τ), SemLoc.dma 18) 0 ∗ semVal ((c : Thread nD τ), SemLoc.dma 19) 0) ∗ iprop(hbPt1 c hbM1_0 (V c main_v6_1) ∗ hbPt1 c hbM1_1 (V c main_v6_2))) := by
  rw [Pipeline.ΦD_eq, scopedRest1_eq, ownSems01_eq, hbmPts1_eq]; simp only [scM1_0, scM1_1, owns_whole]; try rfl

/-- Before position `n`: at the very first point the scratch holds anything; afterwards it holds what the point before
    left (the keys and values of that point's batch). -/
def Phi1 (c : Dev nD) : (n : ℕ) → n ≤ cfg1.N → sProp 𝕄
  | 0, _ => Pipeline.ΦD osem1 spec1 H1 V c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c n hn).2.1 ∗ owns (c : Thread nD τ) scM1_1 fullShare (outsAt1 V c n hn).2.2) ∗ (∃ r, prngReg c r) ∗ iprop(semVal ((c : Thread nD τ), SemLoc.dma 18) 0 ∗ semVal ((c : Thread nD τ), SemLoc.dma 19) 0) ∗ iprop(hbPt1 c hbM1_0 (V c main_v6_1) ∗ hbPt1 c hbM1_1 (V c main_v6_2)))

theorem Phi1_zero (c : Dev nD) (n : ℕ) (h : n ≤ cfg1.N) (hz : n = 0) : Phi1 V c n h = Pipeline.ΦD osem1 spec1 H1 V c := by
  subst hz; rfl
theorem Phi1_succ (c : Dev nD) (n : ℕ) (hn : n < cfg1.N) :
    Phi1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c n hn).2.1 ∗ owns (c : Thread nD τ) scM1_1 fullShare (outsAt1 V c n hn).2.2) ∗ (∃ r, prngReg c r) ∗ iprop(semVal ((c : Thread nD τ), SemLoc.dma 18) 0 ∗ semVal ((c : Thread nD τ), SemLoc.dma 19) 0) ∗ iprop(hbPt1 c hbM1_0 (V c main_v6_1) ∗ hbPt1 c hbM1_1 (V c main_v6_2))) := rfl
theorem Phi1_pos (c : Dev nD) (n : ℕ) (h : n ≤ cfg1.N) (hz : n ≠ 0) :
    Phi1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c (n - 1) (by omega)).2.1 ∗ owns (c : Thread nD τ) scM1_1 fullShare (outsAt1 V c (n - 1) (by omega)).2.2) ∗ (∃ r, prngReg c r) ∗ iprop(semVal ((c : Thread nD τ), SemLoc.dma 18) 0 ∗ semVal ((c : Thread nD τ), SemLoc.dma 19) 0) ∗ iprop(hbPt1 c hbM1_0 (V c main_v6_1) ∗ hbPt1 c hbM1_1 (V c main_v6_2))) := by
  cases n with
  | zero => exact absurd rfl hz
  | succ n => rfl

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => (outsAt1 V c t.val t.isLt).1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d

/-- After any point but the first the scratch's named contents can be forgotten. -/
theorem Phi1_forget (c : Dev nD) (n : ℕ) (h : n ≤ cfg1.N) (hz : n ≠ 0) : Phi1 V c n h ⊢ Pipeline.ΦD osem1 spec1 H1 V c := by
  rw [Phi1_pos V c _ _ hz, PhiD1_eq]
  iintro ⟨⟨HR0, HR1, HR2, HR3, HR4, HR5, HR6, HR7, HR8, HR9, HR10, HR11, HR12, HR13, HS0, HS1⟩, Hrest⟩
  isplitr [Hrest]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HS0]; · iexists _; iexact HS0
    iexists _; iexact HS1
  iexact Hrest
theorem Phi1_out (c : Dev nD) : (dat1 V c).Φ (Fin.last cfg1.N) ⊢ Pipeline.ΦD osem1 spec1 H1 V c := by
  rw [show (dat1 V c).Φ (Fin.last cfg1.N) = Phi1 V c (Fin.last cfg1.N).val (Nat.le_of_lt_succ (Fin.last cfg1.N).isLt) from rfl]
  exact Phi1_forget V c _ _ (by rw [Fin.val_last]; have : cfg1.N = 64 := N_1; omega)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

set_option maxHeartbeats 4800000 in
/-- The body at any point. At a first query tile the invariant hands over the scratch at whatever it holds and takes it
    back at the freshly copied keys and values; at a later tile it hands the scratch over at what the point before left
    and takes it back unchanged. The cells go in at zero and come back at zero, the two arrays come back as they were. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [after1_0, after1_1]
  rw [show (dat1 V c).Φ t.succ = Phi1 V c (t.val + 1) t.isLt from rfl, Phi1_succ, Phi1_castSucc V c t]
  unfold Dat.owesAt Pipeline.owesWithin
  rw [show (dat1 V c).owed t.castSucc = 0 from rfl, show (dat1 V c).owed t.succ = 0 from rfl]
  by_cases h0 : t.val % 16 = 0
  · rw [outsAt1_A V c t h0]
    unfold out1_A_1 sout1_A_0 sout1_A_1; (try dsimp only)
    by_cases hz : t.val = 0
    · rw [Phi1_zero V c _ _ hz, PhiD1_eq]
      iintro ⟨⟨⟨HR0, HR1, HR2, HR3, HR4, HR5, HR6, HR7, HR8, HR9, HR10, HR11, HR12, HR13, HS0, HS1⟩, Hg, ⟨Hq0, Hq1⟩, ⟨Hh0, Hh1⟩⟩, ⟨%W, -, HW⟩, ⟨%d0, H0⟩, ⟨%d1, H1⟩⟩
      iapply ((kernelRun1_A c (grid1.coords t) _ _ _ _ _ _ _ _ ((hcond1_0 t).mpr h0) (iblk1 V c 0 t) (V c main_v6_1) (V c main_v6_2)).2.2.2 W _)
      isplitl [H0]; · iexact H0
      isplitl [H1]; · iexists _; iexact H1
      isplitl [HS0]; · iexact HS0
      isplitl [HS1]; · iexact HS1
      isplitl [Hq0]; · iexact Hq0
      isplitl [Hq1]; · iexact Hq1
      isplitl [Hh0]; · iexact Hh0
      isplitl [Hh1]; · iexact Hh1
      isplitl [HW]; · iexact HW
      iintro ⟨H0, ⟨%e1, H1⟩, ⟨%es0, HS0⟩, ⟨%es1, HS1⟩, Hq0, Hq1, Hh0, Hh1, ⟨%W', HW'⟩⟩
      isplitl [HR0 HR1 HR2 HR3 HR4 HR5 HR6 HR7 HR8 HR9 HR10 HR11 HR12 HR13 HS0 HS1 Hg Hq0 Hq1 Hh0 Hh1]
      · isplitl [HR0 HR1 HR2 HR3 HR4 HR5 HR6 HR7 HR8 HR9 HR10 HR11 HR12 HR13 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_A_0 c _ _ _ _ _ _ _ _ _ _ _ _ _)
          unfold owns; iexists _; isplitr
          swap; · iexact HS1
          ipureintro; exact View.read_writes_of_cover _ _ _ _ _ (scover1_A_1 c _ _ _ _ _ _ _ _ _ _ _ _ _)
        isplitl [Hg]; · iexact Hg
        isplitl [Hq0 Hq1]
        · isplitl [Hq0]; · iexact Hq0
          iexact Hq1
        isplitl [Hh0]; · iexact Hh0
        iexact Hh1
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (cover1_A_1 c _ _ _ _ _ _ _ _ _ _ _ _ _)
    · rw [Phi1_pos V c _ _ hz]
      iintro ⟨⟨⟨HR0, HR1, HR2, HR3, HR4, HR5, HR6, HR7, HR8, HR9, HR10, HR11, HR12, HR13, HS0, HS1⟩, Hg, ⟨Hq0, Hq1⟩, ⟨Hh0, Hh1⟩⟩, ⟨%W, -, HW⟩, ⟨%d0, H0⟩, ⟨%d1, H1⟩⟩
      iapply ((kernelRun1_A c (grid1.coords t) _ _ _ _ _ _ _ _ ((hcond1_0 t).mpr h0) (iblk1 V c 0 t) (V c main_v6_1) (V c main_v6_2)).2.2.2 W _)
      isplitl [H0]; · iexact H0
      isplitl [H1]; · iexists _; iexact H1
      isplitl [HS0]; · iexists _; iexact HS0
      isplitl [HS1]; · iexists _; iexact HS1
      isplitl [Hq0]; · iexact Hq0
      isplitl [Hq1]; · iexact Hq1
      isplitl [Hh0]; · iexact Hh0
      isplitl [Hh1]; · iexact Hh1
      isplitl [HW]; · iexact HW
      iintro ⟨H0, ⟨%e1, H1⟩, ⟨%es0, HS0⟩, ⟨%es1, HS1⟩, Hq0, Hq1, Hh0, Hh1, ⟨%W', HW'⟩⟩
      isplitl [HR0 HR1 HR2 HR3 HR4 HR5 HR6 HR7 HR8 HR9 HR10 HR11 HR12 HR13 HS0 HS1 Hg Hq0 Hq1 Hh0 Hh1]
      · isplitl [HR0 HR1 HR2 HR3 HR4 HR5 HR6 HR7 HR8 HR9 HR10 HR11 HR12 HR13 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_A_0 c _ _ _ _ _ _ _ _ _ _ _ _ _)
          unfold owns; iexists _; isplitr
          swap; · iexact HS1
          ipureintro; exact View.read_writes_of_cover _ _ _ _ _ (scover1_A_1 c _ _ _ _ _ _ _ _ _ _ _ _ _)
        isplitl [Hg]; · iexact Hg
        isplitl [Hq0 Hq1]
        · isplitl [Hq0]; · iexact Hq0
          iexact Hq1
        isplitl [Hh0]; · iexact Hh0
        iexact Hh1
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (cover1_A_1 c _ _ _ _ _ _ _ _ _ _ _ _ _)
  · have hz : t.val ≠ 0 := fun h => h0 (by rw [h])
    rw [outsAt1_B V c t h0]
    unfold out1_B_1; (try dsimp only)
    rw [Phi1_pos V c _ _ hz]
    iintro ⟨⟨⟨HR0, HR1, HR2, HR3, HR4, HR5, HR6, HR7, HR8, HR9, HR10, HR11, HR12, HR13, HS0, HS1⟩, Hrest⟩, HO, ⟨%d0, H0⟩, ⟨%d1, H1⟩⟩
    iapply ((kernelRun1_B c (grid1.coords t) _ _ _ _ _ _ _ _ (fun h => h0 ((hcond1_0 t).mp h)) (iblk1 V c 0 t) _ _).2 _)
    isplitl [H0]; · iexact H0
    isplitl [H1]; · iexists _; iexact H1
    isplitl [HS0]; · iexact HS0
    isplitl [HS1]; · iexact HS1
    iintro ⟨H0, ⟨%e1, H1⟩, HS0, HS1⟩
    isplitl [HR0 HR1 HR2 HR3 HR4 HR5 HR6 HR7 HR8 HR9 HR10 HR11 HR12 HR13 HS0 HS1 Hrest]
    · isplitl [HR0 HR1 HR2 HR3 HR4 HR5 HR6 HR7 HR8 HR9 HR10 HR11 HR12 HR13 HS0 HS1]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HS0]; · iexact HS0
        iexact HS1
      iexact Hrest
    isplitl [HO]; · iexact HO
    isplitl [H0]; · iexact H0
    unfold owns; iexists _; isplitr
    swap; · iexact H1
    ipureintro; exact View.read_writes_of_cover _ _ _ _ _ (cover1_B_1 c _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.TwoRegionsK.lean ====
import proofs.«148255_j55224689492787_2_alg».proof.Proof.Gen.Kernel.Launch
import proofs.«148255_j55224689492787_2_alg».proof.Proof.Gen.Kernel.Skeleton
import proofs.«148255_j55224689492787_2_alg».proof.Proof.Gen.Kernel.Points
import proofs.«148255_j55224689492787_2_alg».proof.Proof.ProjBodyK
import proofs.«148255_j55224689492787_2_alg».proof.Proof.AttnBodyK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The run: the host lines, then the two kernel regions

## What the buffers hold at each boundary -/

/-- Core `c`'s buffers at launch. -/
abbrev W0 : Dev nD → Valuation τ sig (Elt F) := fun c b => (s₀ m ρ).mem ((c : Dev nD), b)
/-- After the six host lines (the three weight matrices transposed and re-typed): what the projection region is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its three result arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the attention region: its result array at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### No line and no region writes an argument array -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data of both pipelines, and what rides beside the buffers -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two regions -/

set_option backward.isDefEq.respectTransparency.types false in
/-- The projection region: entered with every unscoped buffer at `W1`, left with them at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every unscoped buffer at `W2`, left with them at `W3`. Its two DMA cells go
    into the invariant at zero and come back at zero; the two arrays it copies from (the second and third results of
    the projection) go in whole at their contents and come back unchanged. -/
def reg1 : Pipeline.RegionSeg (pcfgs (F := F)) adm (pdats m ρ) () defs₀ 𝒱₀ L lv 1 where
  win := launch1.win.to₀
  block_pos := launch1.block_pos
  stage_whole := launch1.stage_whole
  K := Fin 2
  osem := osem1
  ho := ownSemFacts1
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} V2 m ρ c b))
  Y c := iprop((∃ r, prngReg c r) ∗ (bigSep H1 fun b => (((c : Thread nD τ)).loc b) ↦{fullShare} V2 m ρ c b))
  Z c := bigSep (Pipeline.restRefs sig spec1 \ H1) fun b => (((c : Thread nD τ)).loc b) ↦{fullShare} V2 m ρ c b
  hentry c := by
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    have hH : (Pipeline.unscopedRest (Ix := Unit) (Name := ℕ) (U := Pipeline.UD sig nD τ) (Lvl := ℕ) spec1 c (V2 m ρ c) : sProp 𝕄)
        = iprop((bigSep H1 fun b => (((c : Thread nD τ)).loc b) ↦{fullShare} V2 m ρ c b) ∗ (bigSep (Pipeline.restRefs sig spec1 \ H1) fun b => (((c : Thread nD τ)).loc b) ↦{fullShare} V2 m ρ c b)) := by
      unfold Pipeline.unscopedRest; exact BI.bigSep_sdiff_split H1_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ 1 c).Φ 0 = Phi1 (V2 m ρ) c 0 (Nat.zero_le _) from rfl, Phi1_zero (V2 m ρ) c 0 _ rfl, Pipeline.ΦD_eq]
    iintro ⟨⟨Hp, Ho, HH⟩, -, Hr⟩
    isplitl [Hr]; · iexact Hr
    isplitl [Hp]; · iexact Hp
    isplitl [Ho]; · iexact Ho
    iexact HH
  hout c := by
    refine (Phi1_out (V2 m ρ) c).trans ?_
    rw [Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    have hH : (Pipeline.unscopedRest (Ix := Unit) (Name := ℕ) (U := Pipeline.UD sig nD τ) (Lvl := ℕ) spec1 c (V2 m ρ c) : sProp 𝕄)
        = iprop((bigSep H1 fun b => (((c : Thread nD τ)).loc b) ↦{fullShare} V2 m ρ c b) ∗ (bigSep (Pipeline.restRefs sig spec1 \ H1) fun b => (((c : Thread nD τ)).loc b) ↦{fullShare} V2 m ρ c b)) := by
      unfold Pipeline.unscopedRest; exact BI.bigSep_sdiff_split H1_sub
    iintro ⟨Ha, HO, ⟨HY, HH⟩, HR⟩
    ihave Hrest := (Entails.of_eq hH.symm) $$ [HH HR]
    · isplitl [HH]; · iexact HH
      iexact HR
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The whole program -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program from `m` with zero counters terminates, nothing faulting, and every
    final memory holds each unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

end Cert.Kernel.Hand

end
-- ==== Proof.ProjBody.lean ====
/- The kernel half of region 0 (the projection kernel `cc0__proj_kernel`, pallas_call 0), at a parameter `V` — the
   TensorCore's buffer contents when the region is entered —, for any float instance `F`: each window's block at a point,
   what the body leaves in each of the three output windows' buffers as a function of the seven input blocks, the body's
   separation-logic triple, the pipeline's proof data over the class-A invariant, and the body obligation at every
   point of the 4×4 grid. -/
import proofs.«148255_j55224689492787_2_alg».proof.Proof.Gen.KernelIdeal.Launch
import proofs.«148255_j55224689492787_2_alg».proof.Proof.Gen.KernelIdeal.Skeleton
import proofs.«148255_j55224689492787_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of extent 1024 is decided coordinate by coordinate: a recursion 1024 deep
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: the parameter the region's half is stated at
variable (V : (c : Dev nD) → (b : Ref sig .tc) → Buf (Elt F) ((c : Thread nD τ).loc b))

/-! # REGION 0 of @main: custom_call 0, `cc0__proj_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): where the window is not
    fetched its index has not moved, and the window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): where the window is not
    fetched its index has not moved, and the window is uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): where the window is not
    fetched its index has not moved, and the window is uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): where the window is not
    fetched its index has not moved, and the window is uncut and never idle. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): where the window is not
    fetched its index has not moved, and the window is uncut and never idle. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): where the window is not
    fetched its index has not moved, and the window is uncut and never idle. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): where the window is not
    fetched its index has not moved, and the window is uncut and never idle. -/
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole x block / output block, the whole bias vector, the whole weight matrix. -/
abbrev r0_0 : Rect S1x1024x1024 := Rect.unit (s := S1x1024x1024) ![0, 0, 0] S1x1024x1024.size inb_S1x1024x1024_S1x1024x1024_0_0_0
abbrev r0_1 : Rect S1024 := Rect.unit (s := S1024) ![0] S1024.size inb_S1024_S1024_0
abbrev r0_2 : Rect S1024x1024 := Rect.unit (s := S1024x1024) ![0, 0] S1024x1024.size inb_S1024x1024_S1024x1024_0_0

/-! ## What the body leaves in each output window's buffer -/

/-- Window 7's staging buffer after the body, from the input windows' blocks: its one store as a piece over
    the whole buffer, the payload the skeleton's. -/
def out0_7 (x0 : Vec F S1x1024x1024 .f32) (x1 : Vec F S1024x1024 .bf16) (x2 : Vec F S1024x1024 .bf16) (x3 : Vec F S1024x1024 .bf16) (x4 : Vec F S1024 .f32) (x5 : Vec F S1024 .f32) (x6 : Vec F S1024 .f32) : Vec F S1x1024x1024 .bf16 :=
  View.canon [⟨r0_0, k0_pay3 (View.ld x0 r0_0) (View.ld x4 r0_1) (View.ld x1 r0_2)⟩]

/-- Its one store is of the whole buffer (checked by evaluation), so it covers it. -/
theorem cover0_7 (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

/-- Window 8's staging buffer after the body, from the input windows' blocks: its one store as a piece over
    the whole buffer, the payload the skeleton's. -/
def out0_8 (x0 : Vec F S1x1024x1024 .f32) (x1 : Vec F S1024x1024 .bf16) (x2 : Vec F S1024x1024 .bf16) (x3 : Vec F S1024x1024 .bf16) (x4 : Vec F S1024 .f32) (x5 : Vec F S1024 .f32) (x6 : Vec F S1024 .f32) : Vec F S1x1024x1024 .bf16 :=
  View.canon [⟨r0_0, k0_pay4 (View.ld x0 r0_0) (View.ld x5 r0_1) (View.ld x2 r0_2)⟩]

/-- Its one store is of the whole buffer (checked by evaluation), so it covers it. -/
theorem cover0_8 (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

/-- Window 9's staging buffer after the body, from the input windows' blocks: its one store as a piece over
    the whole buffer, the payload the skeleton's. -/
def out0_9 (x0 : Vec F S1x1024x1024 .f32) (x1 : Vec F S1024x1024 .bf16) (x2 : Vec F S1024x1024 .bf16) (x3 : Vec F S1024x1024 .bf16) (x4 : Vec F S1024 .f32) (x5 : Vec F S1024 .f32) (x6 : Vec F S1024 .f32) : Vec F S1x1024x1024 .bf16 :=
  View.canon [⟨r0_0, k0_pay1 (k0_pay5 (View.ld x0 r0_0) (View.ld x6 r0_1) (View.ld x3 r0_2))⟩]

/-- Its one store is of the whole buffer (checked by evaluation), so it covers it. -/
theorem cover0_9 (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

/-! ## The body's triple -/

set_option maxHeartbeats 4000000 in
/-- The kernel body on whole staging memrefs, the inputs' at read contents `xW` and the outputs' at anything, runs to
    the continuation holding the inputs' as they were and each output's at `out0_W` of the inputs': the printed functions
    are their skeletons, which are run statement by statement, through the part call. Each output buffer is read once
    before it is stored (a value nothing uses) and stored whole once. -/
theorem sound_kernel0 (c : Dev nD) (E : Set ℕ) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .bf16) (harg9 : arg9.IsWhole) (arg10 : Memref sig .tc .vmem S1x1024x1024 .bf16) (harg10 : arg10.IsWhole) (arg11 : Memref sig .tc .vmem S1x1024x1024 .bf16) (harg11 : arg11.IsWhole)
    (x0 : Vec F S1x1024x1024 .f32) (x1 : Vec F S1024x1024 .bf16) (x2 : Vec F S1024x1024 .bf16) (x3 : Vec F S1024x1024 .bf16) (x4 : Vec F S1024 .f32) (x5 : Vec F S1024 .f32) (x6 : Vec F S1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6) ∗ owns (c : Thread nD τ) arg10 fullShare (out0_8 x0 x1 x2 x3 x4 x5 x6) ∗ owns (c : Thread nD τ) arg11 fullShare (out0_9 x0 x1 x2 x3 x4 x5 x6)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The pipeline's proof data -/

/-- The proof data of pipeline 0 on core `c`: the arrays as the region finds them (`V`); after the body at
    point `t` each input's buffer at its block and each output's at `out0_W` of the input blocks; the invariant the
    scoped rest and the pseudo-random generator's register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the invariant and
    the core's owed counts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AttnBody.lean ====
import proofs.«148255_j55224689492787_2_alg».proof.Proof.Gen.KernelIdeal.Launch
import proofs.«148255_j55224689492787_2_alg».proof.Proof.Gen.KernelIdeal.Skeleton
import proofs.«148255_j55224689492787_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The attention kernel's region, at the buffer contents `V` it is entered from

## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch: keys and values are copied in at the first query tile of a batch -/

abbrev cond1_0 (i : grid1.Coords) : Prop := k1_cond1 i = 1#1
/-- The copy happens exactly at the points whose query-tile coordinate is 0: the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-! ## Memrefs the body is called with -/

abbrev VO1_1 : View sig .tc .vmem S1x256x1024 .f32 := (Memref.whole cc1_stg1_0 : Memref sig .tc .vmem S1x256x1024 .f32).view
abbrev ms1_0 (t : Fin cfg1.N) : Memref sig .tc .vmem S1x256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1024 .f32 := win1_1.stage (cfg1.slots t 1)
abbrev hs1_1 (t : Fin cfg1.N) : (ms1_1 t).IsWhole := hstage1_1 ((cfg1.slots t 1).cast nbuf1_1)
/-- The two scratch buffers (keys, values of the current batch). -/
abbrev scM1_0 : Memref sig .tc .vmem S4096x1024 .bf16 := Memref.whole cc1_scratch0
abbrev scM1_1 : Memref sig .tc .vmem S4096x1024 .bf16 := Memref.whole cc1_scratch1
abbrev VS1_0 : View sig .tc .vmem S4096x1024 .bf16 := scM1_0.view
abbrev VS1_1 : View sig .tc .vmem S4096x1024 .bf16 := scM1_1.view
/-- The two arrays left in HBM that the body copies from (all keys, all values). -/
abbrev hbM1_0 : Memref sig .tc .hbm S4x4096x1024 .bf16 := Memref.whole main_v6_1
abbrev hbM1_1 : Memref sig .tc .hbm S4x4096x1024 .bf16 := Memref.whole main_v6_2
abbrev HbBuf1 (c : Dev nD) {sp : Space} {S : Shape} {e : EltTy} (M : Memref sig .tc sp S e) : Type := Buf (Elt F) (M.view.loc (c : Thread nD τ))
abbrev hbPt1 (c : Dev nD) {sp : Space} {S : Shape} {e : EltTy} (M : Memref sig .tc sp S e) (f : HbBuf1 (F := F) c M) : sProp 𝕄 :=
  M.view.loc (c : Thread nD τ) ↦{fullShare} f

/-- The body's two DMA semaphore cells. -/
abbrev osem1 : Fin 2 → SemLoc sig := fun j => (![SemLoc.dma 18, SemLoc.dma 19] : Fin 2 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 18) 0 ∗ semVal ((c : Thread nD τ), SemLoc.dma 19) 0) := by
  rw [Pipeline.ownSems0_eq_of_list c osem1 [0, 1] (by decide) (by decide)]; rfl
def H1 : Finset (Ref sig .tc) := {main_v6_1, main_v6_2}
theorem H1_sub : H1 ⊆ Pipeline.restRefs sig spec1 := by decide
theorem hbmPts1_eq (c : Dev nD) :
    (bigSep H1 (fun b => ((c : Thread nD τ).loc b) ↦{fullShare} V c b) : sProp 𝕄) = iprop(hbPt1 c hbM1_0 (V c main_v6_1) ∗ hbPt1 c hbM1_1 (V c main_v6_2)) := by
  rw [BI.bigSep_eq_bigSepL_of_eq [main_v6_1, main_v6_2] (by decide) (by decide)]; rfl

/-! ## The body, case by case -/

set_option maxHeartbeats 1000000 in
/-- CASE A (first query tile of a batch). On whole memrefs — the query block at `x0`, the output and both scratch
    buffers at anything, both cells at zero, the key and value arrays whole at `fh0`, `fh1` — the body runs; it leaves the
    query block, the arrays and the cells as they were, and the output and both scratch buffers with the pieces named here written. -/
noncomputable def kernelRun1_A (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : cond1_0 i)
    (x0 : Vec F S1x256x1024 .bf16) (fh0 : HbBuf1 (F := F) c hbM1_0) (fh1 : HbBuf1 (F := F) c hbM1_1) :
    Σ' (L1 : List (View.Piece (Elt F) S1x256x1024 .f32)) (LS0 : List (View.Piece (Elt F) S4096x1024 .bf16)), { LS1 : List (View.Piece (Elt F) S4096x1024 .bf16) //
      ∀ (W : Waits sig Unit) (K : PUnit → sProp 𝕄),
        iprop(owns (c : Thread nD τ) arg2 fullShare x0 ∗ (∃ d, owns (c : Thread nD τ) arg5 fullShare d) ∗ (∃ d, owns (c : Thread nD τ) arg6 fullShare d) ∗ (∃ d, owns (c : Thread nD τ) arg7 fullShare d)
            ∗ semVal ((c : Thread nD τ), SemLoc.dma 18) 0 ∗ semVal ((c : Thread nD τ), SemLoc.dma 19) 0 ∗ hbPt1 c hbM1_0 fh0 ∗ hbPt1 c hbM1_1 fh1 ∗ owes (c : Thread nD τ) 0 W
            ∗ (iprop(owns (c : Thread nD τ) arg2 fullShare x0 ∗ (∃ f, arg5.view.loc (c : Thread nD τ) ↦[arg5.view.set]{fullShare} arg5.view.writes (Elt F) f L1)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)
                ∗ semVal ((c : Thread nD τ), SemLoc.dma 18) 0 ∗ semVal ((c : Thread nD τ), SemLoc.dma 19) 0 ∗ hbPt1 c hbM1_0 fh0 ∗ hbPt1 c hbM1_1 fh1 ∗ (∃ W', owes (c : Thread nD τ) 0 W')) -∗ K ⟨⟩))
          ⊢ wp frame (wpE (defs₀ (F := F)) Variants.none c none) Set.univ (cc1__attn_kernel i arg2 harg2 (Memref.whole main_v6_1) (Memref.isWhole_whole _) (Memref.whole main_v6_2) (Memref.isWhole_whole _) arg5 harg5 arg6 harg6 arg7 harg7 cc1_scratch2) K } := by
  refine ⟨?_, ?_, ?_, fun W K => ?run⟩
  case run =>
    simp only [cc1__attn_kernel_eq_skeleton]; unfold cc1__attn_kernel_skel
    unfold owns
    iintro ⟨⟨%f0, %hf0, H0⟩, ⟨%d1, %f1, -, H1⟩, ⟨%ds0, %fs0, -, HS0⟩, ⟨%ds1, %fs1, -, HS1⟩, Hq0, Hq1, Hh0, Hh1, HW, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    isplitl [HS0]; · iexists _; iexact HS0
    isplitl [HS1]; · iexists _; iexact HS1
    isplitl [Hq0]; · iexact Hq0
    isplitl [Hq1]; · iexact Hq1
    isplitl [Hh0]; · iexact Hh0
    isplitl [Hh1]; · iexact Hh1
    iexists _; iexact HW

set_option maxHeartbeats 1000000 in
/-- CASE B (a later query tile of the batch): no copy. The scratch buffers hold `xs0`, `xs1` and are left as they were;
    the output has the pieces named here written. -/
noncomputable def kernelRun1_B (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : ¬cond1_0 i)
    (x0 : Vec F S1x256x1024 .bf16) (xs0 xs1 : Vec F S4096x1024 .bf16) :
    { L1 : List (View.Piece (Elt F) S1x256x1024 .f32) //
      ∀ (K : PUnit → sProp 𝕄),
        iprop(owns (c : Thread nD τ) arg2 fullShare x0 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ (∃ f, arg5.view.loc (c : Thread nD τ) ↦[arg5.view.set]{fullShare} arg5.view.writes (Elt F) f L1)
                ∗ owns (c : Thread nD τ) arg6 fullShare xs0 ∗ owns (c : Thread nD τ) arg7 fullShare xs1) -∗ K ⟨⟩))
          ⊢ wp frame (wpE (defs₀ (F := F)) Variants.none c none) Set.univ (cc1__attn_kernel i arg2 harg2 (Memref.whole main_v6_1) (Memref.isWhole_whole _) (Memref.whole main_v6_2) (Memref.isWhole_whole _) arg5 harg5 arg6 harg6 arg7 harg7 cc1_scratch2) K } := by
  refine ⟨?_, fun K => ?run⟩
  case run =>
    simp only [cc1__attn_kernel_eq_skeleton]; unfold cc1__attn_kernel_skel
    unfold owns
    iintro ⟨⟨%f0, %hf0, H0⟩, ⟨%d1, %f1, -, H1⟩, ⟨%fs0, %hfs0, HS0⟩, ⟨%fs1, %hfs1, HS1⟩, Hk⟩
    obtain rfl := harg2.eq_unread hf0; obtain rfl := harg6.eq_unread hfs0; obtain rfl := harg7.eq_unread hfs1
    sl_exec (disch := first | exact hc0)
    sl_step
    iapply Hk
    isplitl [H0]
    · iexists _; isplitr; · ipureintro; exact harg2.read_unread _
      iexact H0
    isplitl [H1]; · iexists _; iexact H1
    isplitl [HS0]
    · iexists _; isplitr; · ipureintro; exact harg6.read_unread _
      iexact HS0
    iexists _; isplitr; · ipureintro; exact harg7.read_unread _
    iexact HS1

/-! ## What each case leaves -/

theorem cover1_A_1 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : cond1_0 i) (x0 : Vec F S1x256x1024 .bf16) (fh0 : HbBuf1 (F := F) c hbM1_0) (fh1 : HbBuf1 (F := F) c hbM1_1) (y : S1x256x1024.Idx) :
    ∃ pc ∈ (kernelRun1_A c i arg2 harg2 arg5 harg5 arg6 harg6 arg7 harg7 hc0 x0 fh0 fh1).1, y ∈ pc.1.set :=
  View.cover_of_tiledL (kernelRun1_A c i arg2 harg2 arg5 harg5 arg6 harg6 arg7 harg7 hc0 x0 fh0 fh1).1 S1x256x1024.size (by sl_kernel_rfl) y
/-- The output block after case A: its pieces read back. -/
def out1_A_1 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : cond1_0 i) (x0 : Vec F S1x256x1024 .bf16) (fh0 : HbBuf1 (F := F) c hbM1_0) (fh1 : HbBuf1 (F := F) c hbM1_1) : Vec F S1x256x1024 .f32 :=
  VO1_1.read (Elt F) (VO1_1.writes (Elt F) VO1_1.junk (kernelRun1_A c i arg2 harg2 arg5 harg5 arg6 harg6 arg7 harg7 hc0 x0 fh0 fh1).1)
theorem scover1_A_0 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : cond1_0 i) (x0 : Vec F S1x256x1024 .bf16) (fh0 : HbBuf1 (F := F) c hbM1_0) (fh1 : HbBuf1 (F := F) c hbM1_1) (y : S4096x1024.Idx) :
    ∃ pc ∈ (kernelRun1_A c i arg2 harg2 arg5 harg5 arg6 harg6 arg7 harg7 hc0 x0 fh0 fh1).2.1, y ∈ pc.1.set :=
  View.cover_of_tiledL (kernelRun1_A c i arg2 harg2 arg5 harg5 arg6 harg6 arg7 harg7 hc0 x0 fh0 fh1).2.1 S4096x1024.size (by sl_kernel_rfl) y
/-- The key scratch after case A: the copied slab. -/
def sout1_A_0 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : cond1_0 i) (x0 : Vec F S1x256x1024 .bf16) (fh0 : HbBuf1 (F := F) c hbM1_0) (fh1 : HbBuf1 (F := F) c hbM1_1) : Vec F S4096x1024 .bf16 :=
  VS1_0.read (Elt F) (VS1_0.writes (Elt F) VS1_0.junk (kernelRun1_A c i arg2 harg2 arg5 harg5 arg6 harg6 arg7 harg7 hc0 x0 fh0 fh1).2.1)
theorem scover1_A_1 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : cond1_0 i) (x0 : Vec F S1x256x1024 .bf16) (fh0 : HbBuf1 (F := F) c hbM1_0) (fh1 : HbBuf1 (F := F) c hbM1_1) (y : S4096x1024.Idx) :
    ∃ pc ∈ (kernelRun1_A c i arg2 harg2 arg5 harg5 arg6 harg6 arg7 harg7 hc0 x0 fh0 fh1).2.2.1, y ∈ pc.1.set :=
  View.cover_of_tiledL (kernelRun1_A c i arg2 harg2 arg5 harg5 arg6 harg6 arg7 harg7 hc0 x0 fh0 fh1).2.2.1 S4096x1024.size (by sl_kernel_rfl) y
/-- The value scratch after case A: the copied slab. -/
def sout1_A_1 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : cond1_0 i) (x0 : Vec F S1x256x1024 .bf16) (fh0 : HbBuf1 (F := F) c hbM1_0) (fh1 : HbBuf1 (F := F) c hbM1_1) : Vec F S4096x1024 .bf16 :=
  VS1_1.read (Elt F) (VS1_1.writes (Elt F) VS1_1.junk (kernelRun1_A c i arg2 harg2 arg5 harg5 arg6 harg6 arg7 harg7 hc0 x0 fh0 fh1).2.2.1)
theorem cover1_B_1 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : ¬cond1_0 i) (x0 : Vec F S1x256x1024 .bf16) (xs0 xs1 : Vec F S4096x1024 .bf16) (y : S1x256x1024.Idx) :
    ∃ pc ∈ (kernelRun1_B c i arg2 harg2 arg5 harg5 arg6 harg6 arg7 harg7 hc0 x0 xs0 xs1).1, y ∈ pc.1.set :=
  View.cover_of_tiledL (kernelRun1_B c i arg2 harg2 arg5 harg5 arg6 harg6 arg7 harg7 hc0 x0 xs0 xs1).1 S1x256x1024.size (by sl_kernel_rfl) y
/-- The output block after case B. -/
def out1_B_1 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : ¬cond1_0 i) (x0 : Vec F S1x256x1024 .bf16) (xs0 xs1 : Vec F S4096x1024 .bf16) : Vec F S1x256x1024 .f32 :=
  VO1_1.read (Elt F) (VO1_1.writes (Elt F) VO1_1.junk (kernelRun1_B c i arg2 harg2 arg5 harg5 arg6 harg6 arg7 harg7 hc0 x0 xs0 xs1).1)

/-! ## Point by point -/

/-- After the body at position `n`: the output block, the key scratch, the value scratch. At a first query tile
    (n ≡ 0 mod 16) the scratch is freshly copied; otherwise it is what the point before left. -/
def outsAt1 (c : Dev nD) : (n : ℕ) → n < cfg1.N → Vec F S1x256x1024 .f32 × Vec F S4096x1024 .bf16 × Vec F S4096x1024 .bf16
  | 0, hn => (out1_A_1 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (iblk1 V c 0 ⟨0, hn⟩) (V c main_v6_1) (V c main_v6_2), sout1_A_0 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (iblk1 V c 0 ⟨0, hn⟩) (V c main_v6_1) (V c main_v6_2), sout1_A_1 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (iblk1 V c 0 ⟨0, hn⟩) (V c main_v6_1) (V c main_v6_2))
  | n + 1, hn =>
    if h0 : (n + 1) % 16 = 0 then
      (out1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (iblk1 V c 0 ⟨n + 1, hn⟩) (V c main_v6_1) (V c main_v6_2), sout1_A_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (iblk1 V c 0 ⟨n + 1, hn⟩) (V c main_v6_1) (V c main_v6_2), sout1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (iblk1 V c 0 ⟨n + 1, hn⟩) (V c main_v6_1) (V c main_v6_2))
    else
      (out1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) (iblk1 V c 0 ⟨n + 1, hn⟩) (outsAt1 c n (Nat.lt_of_succ_lt hn)).2.1 (outsAt1 c n (Nat.lt_of_succ_lt hn)).2.2, (outsAt1 c n (Nat.lt_of_succ_lt hn)).2.1, (outsAt1 c n (Nat.lt_of_succ_lt hn)).2.2)

theorem outsAt1_A (c : Dev nD) (t : Fin cfg1.N) (h0 : t.val % 16 = 0) :
    outsAt1 V c t.val t.isLt = (out1_A_1 c (grid1.coords t) (ms1_0 t) (hs1_0 t) (ms1_1 t) (hs1_1 t) scM1_0 (Memref.isWhole_whole _) scM1_1 (Memref.isWhole_whole _) ((hcond1_0 t).mpr h0) (iblk1 V c 0 t) (V c main_v6_1) (V c main_v6_2), sout1_A_0 c (grid1.coords t) (ms1_0 t) (hs1_0 t) (ms1_1 t) (hs1_1 t) scM1_0 (Memref.isWhole_whole _) scM1_1 (Memref.isWhole_whole _) ((hcond1_0 t).mpr h0) (iblk1 V c 0 t) (V c main_v6_1) (V c main_v6_2), sout1_A_1 c (grid1.coords t) (ms1_0 t) (hs1_0 t) (ms1_1 t) (hs1_1 t) scM1_0 (Memref.isWhole_whole _) scM1_1 (Memref.isWhole_whole _) ((hcond1_0 t).mpr h0) (iblk1 V c 0 t) (V c main_v6_1) (V c main_v6_2)) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = (out1_B_1 c (grid1.coords t) (ms1_0 t) (hs1_0 t) (ms1_1 t) (hs1_1 t) scM1_0 (Memref.isWhole_whole _) scM1_1 (Memref.isWhole_whole _) (fun h => h0 ((hcond1_0 t).mp h)) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, (outsAt1 V c (t.val - 1) (Nat.lt_of_le_of_lt (Nat.sub_le _ _) t.isLt)).2.1, (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The invariant between points -/

/-- The invariant of a body that copies from the two arrays by its own DMA, conjunct by conjunct: the other scoped
    buffers and the two scratch buffers at anything, the generator register, both cells at zero, both arrays whole. -/
theorem PhiD1_eq (c : Dev nD) :
    (Pipeline.ΦD osem1 spec1 H1 V c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d)) ∗ (∃ r, prngReg c r) ∗ iprop(semVal ((c : Thread nD τ), SemLoc.dma 18) 0 ∗ semVal ((c : Thread nD τ), SemLoc.dma 19) 0) ∗ iprop(hbPt1 c hbM1_0 (V c main_v6_1) ∗ hbPt1 c hbM1_1 (V c main_v6_2))) := by
  rw [Pipeline.ΦD_eq, scopedRest1_eq, ownSems01_eq, hbmPts1_eq]; simp only [scM1_0, scM1_1, owns_whole]; try rfl

/-- Before position `n`: at the very first point the scratch holds anything; afterwards it holds what the point before
    left (the keys and values of that point's batch). -/
def Phi1 (c : Dev nD) : (n : ℕ) → n ≤ cfg1.N → sProp 𝕄
  | 0, _ => Pipeline.ΦD osem1 spec1 H1 V c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c n hn).2.1 ∗ owns (c : Thread nD τ) scM1_1 fullShare (outsAt1 V c n hn).2.2) ∗ (∃ r, prngReg c r) ∗ iprop(semVal ((c : Thread nD τ), SemLoc.dma 18) 0 ∗ semVal ((c : Thread nD τ), SemLoc.dma 19) 0) ∗ iprop(hbPt1 c hbM1_0 (V c main_v6_1) ∗ hbPt1 c hbM1_1 (V c main_v6_2)))

theorem Phi1_zero (c : Dev nD) (n : ℕ) (h : n ≤ cfg1.N) (hz : n = 0) : Phi1 V c n h = Pipeline.ΦD osem1 spec1 H1 V c := by
  subst hz; rfl
theorem Phi1_succ (c : Dev nD) (n : ℕ) (hn : n < cfg1.N) :
    Phi1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c n hn).2.1 ∗ owns (c : Thread nD τ) scM1_1 fullShare (outsAt1 V c n hn).2.2) ∗ (∃ r, prngReg c r) ∗ iprop(semVal ((c : Thread nD τ), SemLoc.dma 18) 0 ∗ semVal ((c : Thread nD τ), SemLoc.dma 19) 0) ∗ iprop(hbPt1 c hbM1_0 (V c main_v6_1) ∗ hbPt1 c hbM1_1 (V c main_v6_2))) := rfl
theorem Phi1_pos (c : Dev nD) (n : ℕ) (h : n ≤ cfg1.N) (hz : n ≠ 0) :
    Phi1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c (n - 1) (by omega)).2.1 ∗ owns (c : Thread nD τ) scM1_1 fullShare (outsAt1 V c (n - 1) (by omega)).2.2) ∗ (∃ r, prngReg c r) ∗ iprop(semVal ((c : Thread nD τ), SemLoc.dma 18) 0 ∗ semVal ((c : Thread nD τ), SemLoc.dma 19) 0) ∗ iprop(hbPt1 c hbM1_0 (V c main_v6_1) ∗ hbPt1 c hbM1_1 (V c main_v6_2))) := by
  cases n with
  | zero => exact absurd rfl hz
  | succ n => rfl

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => (outsAt1 V c t.val t.isLt).1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d

/-- After any point but the first the scratch's named contents can be forgotten. -/
theorem Phi1_forget (c : Dev nD) (n : ℕ) (h : n ≤ cfg1.N) (hz : n ≠ 0) : Phi1 V c n h ⊢ Pipeline.ΦD osem1 spec1 H1 V c := by
  rw [Phi1_pos V c _ _ hz, PhiD1_eq]
  iintro ⟨⟨HR0, HR1, HR2, HR3, HR4, HR5, HR6, HR7, HR8, HR9, HR10, HR11, HR12, HR13, HS0, HS1⟩, Hrest⟩
  isplitr [Hrest]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HS0]; · iexists _; iexact HS0
    iexists _; iexact HS1
  iexact Hrest
theorem Phi1_out (c : Dev nD) : (dat1 V c).Φ (Fin.last cfg1.N) ⊢ Pipeline.ΦD osem1 spec1 H1 V c := by
  rw [show (dat1 V c).Φ (Fin.last cfg1.N) = Phi1 V c (Fin.last cfg1.N).val (Nat.le_of_lt_succ (Fin.last cfg1.N).isLt) from rfl]
  exact Phi1_forget V c _ _ (by rw [Fin.val_last]; have : cfg1.N = 64 := N_1; omega)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

set_option maxHeartbeats 4800000 in
/-- The body at any point. At a first query tile the invariant hands over the scratch at whatever it holds and takes it
    back at the freshly copied keys and values; at a later tile it hands the scratch over at what the point before left
    and takes it back unchanged. The cells go in at zero and come back at zero, the two arrays come back as they were. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [after1_0, after1_1]
  rw [show (dat1 V c).Φ t.succ = Phi1 V c (t.val + 1) t.isLt from rfl, Phi1_succ, Phi1_castSucc V c t]
  unfold Dat.owesAt Pipeline.owesWithin
  rw [show (dat1 V c).owed t.castSucc = 0 from rfl, show (dat1 V c).owed t.succ = 0 from rfl]
  by_cases h0 : t.val % 16 = 0
  · rw [outsAt1_A V c t h0]
    unfold out1_A_1 sout1_A_0 sout1_A_1; (try dsimp only)
    by_cases hz : t.val = 0
    · rw [Phi1_zero V c _ _ hz, PhiD1_eq]
      iintro ⟨⟨⟨HR0, HR1, HR2, HR3, HR4, HR5, HR6, HR7, HR8, HR9, HR10, HR11, HR12, HR13, HS0, HS1⟩, Hg, ⟨Hq0, Hq1⟩, ⟨Hh0, Hh1⟩⟩, ⟨%W, -, HW⟩, ⟨%d0, H0⟩, ⟨%d1, H1⟩⟩
      iapply ((kernelRun1_A c (grid1.coords t) _ _ _ _ _ _ _ _ ((hcond1_0 t).mpr h0) (iblk1 V c 0 t) (V c main_v6_1) (V c main_v6_2)).2.2.2 W _)
      isplitl [H0]; · iexact H0
      isplitl [H1]; · iexists _; iexact H1
      isplitl [HS0]; · iexact HS0
      isplitl [HS1]; · iexact HS1
      isplitl [Hq0]; · iexact Hq0
      isplitl [Hq1]; · iexact Hq1
      isplitl [Hh0]; · iexact Hh0
      isplitl [Hh1]; · iexact Hh1
      isplitl [HW]; · iexact HW
      iintro ⟨H0, ⟨%e1, H1⟩, ⟨%es0, HS0⟩, ⟨%es1, HS1⟩, Hq0, Hq1, Hh0, Hh1, ⟨%W', HW'⟩⟩
      isplitl [HR0 HR1 HR2 HR3 HR4 HR5 HR6 HR7 HR8 HR9 HR10 HR11 HR12 HR13 HS0 HS1 Hg Hq0 Hq1 Hh0 Hh1]
      · isplitl [HR0 HR1 HR2 HR3 HR4 HR5 HR6 HR7 HR8 HR9 HR10 HR11 HR12 HR13 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_A_0 c _ _ _ _ _ _ _ _ _ _ _ _ _)
          unfold owns; iexists _; isplitr
          swap; · iexact HS1
          ipureintro; exact View.read_writes_of_cover _ _ _ _ _ (scover1_A_1 c _ _ _ _ _ _ _ _ _ _ _ _ _)
        isplitl [Hg]; · iexact Hg
        isplitl [Hq0 Hq1]
        · isplitl [Hq0]; · iexact Hq0
          iexact Hq1
        isplitl [Hh0]; · iexact Hh0
        iexact Hh1
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (cover1_A_1 c _ _ _ _ _ _ _ _ _ _ _ _ _)
    · rw [Phi1_pos V c _ _ hz]
      iintro ⟨⟨⟨HR0, HR1, HR2, HR3, HR4, HR5, HR6, HR7, HR8, HR9, HR10, HR11, HR12, HR13, HS0, HS1⟩, Hg, ⟨Hq0, Hq1⟩, ⟨Hh0, Hh1⟩⟩, ⟨%W, -, HW⟩, ⟨%d0, H0⟩, ⟨%d1, H1⟩⟩
      iapply ((kernelRun1_A c (grid1.coords t) _ _ _ _ _ _ _ _ ((hcond1_0 t).mpr h0) (iblk1 V c 0 t) (V c main_v6_1) (V c main_v6_2)).2.2.2 W _)
      isplitl [H0]; · iexact H0
      isplitl [H1]; · iexists _; iexact H1
      isplitl [HS0]; · iexists _; iexact HS0
      isplitl [HS1]; · iexists _; iexact HS1
      isplitl [Hq0]; · iexact Hq0
      isplitl [Hq1]; · iexact Hq1
      isplitl [Hh0]; · iexact Hh0
      isplitl [Hh1]; · iexact Hh1
      isplitl [HW]; · iexact HW
      iintro ⟨H0, ⟨%e1, H1⟩, ⟨%es0, HS0⟩, ⟨%es1, HS1⟩, Hq0, Hq1, Hh0, Hh1, ⟨%W', HW'⟩⟩
      isplitl [HR0 HR1 HR2 HR3 HR4 HR5 HR6 HR7 HR8 HR9 HR10 HR11 HR12 HR13 HS0 HS1 Hg Hq0 Hq1 Hh0 Hh1]
      · isplitl [HR0 HR1 HR2 HR3 HR4 HR5 HR6 HR7 HR8 HR9 HR10 HR11 HR12 HR13 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_A_0 c _ _ _ _ _ _ _ _ _ _ _ _ _)
          unfold owns; iexists _; isplitr
          swap; · iexact HS1
          ipureintro; exact View.read_writes_of_cover _ _ _ _ _ (scover1_A_1 c _ _ _ _ _ _ _ _ _ _ _ _ _)
        isplitl [Hg]; · iexact Hg
        isplitl [Hq0 Hq1]
        · isplitl [Hq0]; · iexact Hq0
          iexact Hq1
        isplitl [Hh0]; · iexact Hh0
        iexact Hh1
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (cover1_A_1 c _ _ _ _ _ _ _ _ _ _ _ _ _)
  · have hz : t.val ≠ 0 := fun h => h0 (by rw [h])
    rw [outsAt1_B V c t h0]
    unfold out1_B_1; (try dsimp only)
    rw [Phi1_pos V c _ _ hz]
    iintro ⟨⟨⟨HR0, HR1, HR2, HR3, HR4, HR5, HR6, HR7, HR8, HR9, HR10, HR11, HR12, HR13, HS0, HS1⟩, Hrest⟩, HO, ⟨%d0, H0⟩, ⟨%d1, H1⟩⟩
    iapply ((kernelRun1_B c (grid1.coords t) _ _ _ _ _ _ _ _ (fun h => h0 ((hcond1_0 t).mp h)) (iblk1 V c 0 t) _ _).2 _)
    isplitl [H0]; · iexact H0
    isplitl [H1]; · iexists _; iexact H1
    isplitl [HS0]; · iexact HS0
    isplitl [HS1]; · iexact HS1
    iintro ⟨H0, ⟨%e1, H1⟩, HS0, HS1⟩
    isplitl [HR0 HR1 HR2 HR3 HR4 HR5 HR6 HR7 HR8 HR9 HR10 HR11 HR12 HR13 HS0 HS1 Hrest]
    · isplitl [HR0 HR1 HR2 HR3 HR4 HR5 HR6 HR7 HR8 HR9 HR10 HR11 HR12 HR13 HS0 HS1]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HS0]; · iexact HS0
        iexact HS1
      iexact Hrest
    isplitl [HO]; · iexact HO
    isplitl [H0]; · iexact H0
    unfold owns; iexists _; isplitr
    swap; · iexact H1
    ipureintro; exact View.read_writes_of_cover _ _ _ _ _ (cover1_B_1 c _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.TwoRegions.lean ====
import proofs.«148255_j55224689492787_2_alg».proof.Proof.Gen.KernelIdeal.Launch
import proofs.«148255_j55224689492787_2_alg».proof.Proof.Gen.KernelIdeal.Skeleton
import proofs.«148255_j55224689492787_2_alg».proof.Proof.Gen.KernelIdeal.Points
import proofs.«148255_j55224689492787_2_alg».proof.Proof.ProjBody
import proofs.«148255_j55224689492787_2_alg».proof.Proof.AttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The run: the host lines, then the two kernel regions

## What the buffers hold at each boundary -/

/-- Core `c`'s buffers at launch. -/
abbrev W0 : Dev nD → Valuation τ sig (Elt F) := fun c b => (s₀ m ρ).mem ((c : Dev nD), b)
/-- After the six host lines (the three weight matrices transposed and re-typed): what the projection region is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its three result arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the attention region: its result array at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### No line and no region writes an argument array -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data of both pipelines, and what rides beside the buffers -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two regions -/

set_option backward.isDefEq.respectTransparency.types false in
/-- The projection region: entered with every unscoped buffer at `W1`, left with them at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every unscoped buffer at `W2`, left with them at `W3`. Its two DMA cells go
    into the invariant at zero and come back at zero; the two arrays it copies from (the second and third results of
    the projection) go in whole at their contents and come back unchanged. -/
def reg1 : Pipeline.RegionSeg (pcfgs (F := F)) adm (pdats m ρ) () defs₀ 𝒱₀ L lv 1 where
  win := launch1.win.to₀
  block_pos := launch1.block_pos
  stage_whole := launch1.stage_whole
  K := Fin 2
  osem := osem1
  ho := ownSemFacts1
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} V2 m ρ c b))
  Y c := iprop((∃ r, prngReg c r) ∗ (bigSep H1 fun b => (((c : Thread nD τ)).loc b) ↦{fullShare} V2 m ρ c b))
  Z c := bigSep (Pipeline.restRefs sig spec1 \ H1) fun b => (((c : Thread nD τ)).loc b) ↦{fullShare} V2 m ρ c b
  hentry c := by
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    have hH : (Pipeline.unscopedRest (Ix := Unit) (Name := ℕ) (U := Pipeline.UD sig nD τ) (Lvl := ℕ) spec1 c (V2 m ρ c) : sProp 𝕄)
        = iprop((bigSep H1 fun b => (((c : Thread nD τ)).loc b) ↦{fullShare} V2 m ρ c b) ∗ (bigSep (Pipeline.restRefs sig spec1 \ H1) fun b => (((c : Thread nD τ)).loc b) ↦{fullShare} V2 m ρ c b)) := by
      unfold Pipeline.unscopedRest; exact BI.bigSep_sdiff_split H1_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ 1 c).Φ 0 = Phi1 (V2 m ρ) c 0 (Nat.zero_le _) from rfl, Phi1_zero (V2 m ρ) c 0 _ rfl, Pipeline.ΦD_eq]
    iintro ⟨⟨Hp, Ho, HH⟩, -, Hr⟩
    isplitl [Hr]; · iexact Hr
    isplitl [Hp]; · iexact Hp
    isplitl [Ho]; · iexact Ho
    iexact HH
  hout c := by
    refine (Phi1_out (V2 m ρ) c).trans ?_
    rw [Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    have hH : (Pipeline.unscopedRest (Ix := Unit) (Name := ℕ) (U := Pipeline.UD sig nD τ) (Lvl := ℕ) spec1 c (V2 m ρ c) : sProp 𝕄)
        = iprop((bigSep H1 fun b => (((c : Thread nD τ)).loc b) ↦{fullShare} V2 m ρ c b) ∗ (bigSep (Pipeline.restRefs sig spec1 \ H1) fun b => (((c : Thread nD τ)).loc b) ↦{fullShare} V2 m ρ c b)) := by
      unfold Pipeline.unscopedRest; exact BI.bigSep_sdiff_split H1_sub
    iintro ⟨Ha, HO, ⟨HY, HH⟩, HR⟩
    ihave Hrest := (Entails.of_eq hH.symm) $$ [HH HR]
    · isplitl [HH]; · iexact HH
      iexact HR
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The whole program -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program from `m` with zero counters terminates, nothing faulting, and every
    final memory holds each unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

end Cert.KernelIdeal.Hand

end
-- ==== Proof.HostSide.lean ====
/-
  What the projection region is entered with, at the ideal values. The host lines in front of it transpose each of
  the three weight matrices and change its float format, which at the ideal values is the identity: the region's
  weight operand holds, at `(d, e)`, the argument's entry `(e, d)`. The activations and the three bias rows are
  written by no host line and are the arguments themselves.
-/
import proofs.«148255_j55224689492787_2_alg».proof.Proof.TwoRegions
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

/-- The first weight matrix as the projection region is entered with it: the argument transposed (the change of
    float format is the identity at the ideal values). -/
theorem V1_main_v1 (c : Dev nD) (d e : Fin 1024) :
    (V1 m ρ c main_v1 : S1024x1024.Idx → EReal) (ix2 d e)
      = (m ((c : Thread nD τ).loc main_arg1) : S1024x1024.Idx → EReal) (ix2 e d) := by
  have h : @Eq (FVec Ideal S1024x1024 .bf16) (V1 m ρ c main_v1)
      (truncf .bf16 (transpose S1024x1024 [1, 0] (m ((c : Thread nD τ).loc main_arg1) : FVec Ideal S1024x1024 .f32)
        transposes_S1024x1024_S1024x1024_1_0) bitsLt_bf16_f32) := by
    dsimp only [V1, W1, hostOps0]; after_results
  rw [h, truncf_apply, transpose_ix2_apply]

/-- The second weight matrix as the projection region is entered with it: the argument transposed (the change of
    float format is the identity at the ideal values). -/
theorem V1_main_v3 (c : Dev nD) (d e : Fin 1024) :
    (V1 m ρ c main_v3 : S1024x1024.Idx → EReal) (ix2 d e)
      = (m ((c : Thread nD τ).loc main_arg2) : S1024x1024.Idx → EReal) (ix2 e d) := by
  have h : @Eq (FVec Ideal S1024x1024 .bf16) (V1 m ρ c main_v3)
      (truncf .bf16 (transpose S1024x1024 [1, 0] (m ((c : Thread nD τ).loc main_arg2) : FVec Ideal S1024x1024 .f32)
        transposes_S1024x1024_S1024x1024_1_0) bitsLt_bf16_f32) := by
    dsimp only [V1, W1, hostOps0]; after_results
  rw [h, truncf_apply, transpose_ix2_apply]

/-- The third weight matrix as the projection region is entered with it: the argument transposed (the change of
    float format is the identity at the ideal values). -/
theorem V1_main_v5 (c : Dev nD) (d e : Fin 1024) :
    (V1 m ρ c main_v5 : S1024x1024.Idx → EReal) (ix2 d e)
      = (m ((c : Thread nD τ).loc main_arg3) : S1024x1024.Idx → EReal) (ix2 e d) := by
  have h : @Eq (FVec Ideal S1024x1024 .bf16) (V1 m ρ c main_v5)
      (truncf .bf16 (transpose S1024x1024 [1, 0] (m ((c : Thread nD τ).loc main_arg3) : FVec Ideal S1024x1024 .f32)
        transposes_S1024x1024_S1024x1024_1_0) bitsLt_bf16_f32) := by
    dsimp only [V1, W1, hostOps0]; after_results
  rw [h, truncf_apply, transpose_ix2_apply]

/-- No host line writes the activations. -/
theorem V1_main_arg0 (c : Dev nD) : V1 m ρ c main_arg0 = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append, List.nil_append,
        List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))).trans rfl

/-- No host line writes the first bias row. -/
theorem V1_main_arg4 (c : Dev nD) : V1 m ρ c main_arg4 = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append, List.nil_append,
        List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))).trans rfl

/-- No host line writes the second bias row. -/
theorem V1_main_arg5 (c : Dev nD) : V1 m ρ c main_arg5 = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append, List.nil_append,
        List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))).trans rfl

/-- No host line writes the third bias row. -/
theorem V1_main_arg6 (c : Dev nD) : V1 m ρ c main_arg6 = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append, List.nil_append,
        List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))).trans rfl

end Cert.KernelIdeal.Hand

end
-- ==== Proof.AttnValue.lean ====
import proofs.«148255_j55224689492787_2_alg».proof.Proof.Gen.KernelIdeal.Launch
import proofs.«148255_j55224689492787_2_alg».proof.Proof.Gen.KernelIdeal.Skeleton
import proofs.«148255_j55224689492787_2_alg».proof.Proof.Gen.KernelIdeal.Points
import proofs.«148255_j55224689492787_2_alg».proof.Proof.AttnBody
import Idealize.ShloMosaic.Lib.Pipeline.Value
import Idealize.ShloMosaic.Lib.ValueIdx
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

/-! # What the attention body computes, case by case, and what it keeps in its scratch -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- One store over the whole shape leaves its payload. -/
theorem canon_whole {Val : EltTy → Type} [∀ e, Nonempty (Val e)] {S : Shape} {e : EltTy} (w : S.Idx → Val e) :
    View.canon [(⟨Rect.whole S, w⟩ : View.Piece Val S e)] = w :=
  View.canon_unit_zero (off := fun _ => 0) rfl (fun a => by simp) w

/-- A later query tile: the output block is the attention of the query block against the kept keys and values. -/
theorem out_B (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : ¬cond1_0 i) (x0 : Vec F S1x256x1024 .bf16) (xs0 xs1 : Vec F S4096x1024 .bf16) :
    out1_B_1 c i arg2 harg2 arg5 harg5 arg6 harg6 arg7 harg7 hc0 x0 xs0 xs1 = k1_pay1 x0 xs0 xs1 := by
  unfold out1_B_1
  rw [View.read_writes_eq_canon _ _ _ (cover1_B_1 c i arg2 harg2 arg5 harg5 arg6 harg6 arg7 harg7 hc0 x0 xs0 xs1)]
  unfold kernelRun1_B
  dsimp only
  rw [View.canon_unit_zero zeros3]
  simp only [View.readAt_eq_ld, harg2.read_unread, harg6.read_unread, harg7.read_unread, View.ld_unit_zero (S := S1x256x1024) zeros3, View.ld_unit_zero (S := S4096x1024) zeros2]

/-- Batch `n`'s rows of a [4, 4096, 1024] array. -/
def slab (fh : Vec F S4x4096x1024 .bf16) (n : Fin 4) : Vec F S4096x1024 .bf16 := fun j => fh (ix3 n (j 0) (j 1))

/-- The copy's source — batch `i 0`'s rows of the array, through the sliced and squeezed memref — read at (k, d). -/
theorem copied_apply_1 (i : grid1.Coords) (hc0 : cond1_0 i) (fh : Vec F S4x4096x1024 .bf16) (k : Fin 4096) (d : Fin 1024) :
    (ReadAs.same.apply (View.read (Elt F) (((Memref.whole main_v6_1 : Memref sig .tc .hbm S4x4096x1024 .bf16).slice (Rect.unit (s := S4x4096x1024) (k1_off1 i) S1x4096x1024.size (k1_off1_inb i hc0)) (fun _ => rfl)).squeeze S4096x1024 squeezes_S1x4096x1024_S4096x1024).view fh) : Vec F S4096x1024 .bf16) (ix2 k d) = fh (ix3 (i 0) k d) := by
  rw [ReadAs.apply_same]
  have hc : (Rect.unit (s := S4x4096x1024) (k1_off1 i) S1x4096x1024.size (k1_off1_inb i hc0)).shape.ShapeCasts S4096x1024 := squeezes_S1x4096x1024_S4096x1024.numel_eq
  rw [Memref.read_squeeze_slice (Memref.whole main_v6_1 : Memref sig .tc .hbm S4x4096x1024 .bf16) _ (fun _ => rfl) squeezes_S1x4096x1024_S4096x1024 hc fh]
  rw [shapeCast_apply _ hc (ix2 k d) (ix3 (0 : Fin 1) k d) (by
    rw [Shape.rowMajor_val_three, Shape.rowMajor_val_two]
    show ((0 * 4096 + k.val) * 1024 + d.val) = k.val * 1024 + d.val
    simp only [Nat.zero_mul, Nat.zero_add])]
  rw [View.readAt_eq_ld]
  show fh ((Rect.unit (s := S4x4096x1024) (k1_off1 i) S1x4096x1024.size (k1_off1_inb i hc0)).emb (ix3 (0 : Fin 1) k d)) = _
  refine congrArg fh (funext fun a => Fin.ext ?_)
  match a with
  | ⟨0, _⟩ =>
    have h4 : (i 0).val < 4 := (i 0).isLt
    show (BitVec.ofNat 32 (i 0).val).toNat + 1 * 0 = (i 0).val
    rw [BitVec.toNat_ofNat, Nat.mod_eq_of_lt (by omega)]; omega
  | ⟨1, _⟩ => show 0 + 1 * k.val = k.val; omega
  | ⟨2, _⟩ => show 0 + 1 * d.val = d.val; omega

/-- The copy's source — batch `i 0`'s rows of the array, through the sliced and squeezed memref — read at (k, d). -/
theorem copied_apply_2 (i : grid1.Coords) (hc0 : cond1_0 i) (fh : Vec F S4x4096x1024 .bf16) (k : Fin 4096) (d : Fin 1024) :
    (ReadAs.same.apply (View.read (Elt F) (((Memref.whole main_v6_2 : Memref sig .tc .hbm S4x4096x1024 .bf16).slice (Rect.unit (s := S4x4096x1024) (k1_off1 i) S1x4096x1024.size (k1_off1_inb i hc0)) (fun _ => rfl)).squeeze S4096x1024 squeezes_S1x4096x1024_S4096x1024).view fh) : Vec F S4096x1024 .bf16) (ix2 k d) = fh (ix3 (i 0) k d) := by
  rw [ReadAs.apply_same]
  have hc : (Rect.unit (s := S4x4096x1024) (k1_off1 i) S1x4096x1024.size (k1_off1_inb i hc0)).shape.ShapeCasts S4096x1024 := squeezes_S1x4096x1024_S4096x1024.numel_eq
  rw [Memref.read_squeeze_slice (Memref.whole main_v6_2 : Memref sig .tc .hbm S4x4096x1024 .bf16) _ (fun _ => rfl) squeezes_S1x4096x1024_S4096x1024 hc fh]
  rw [shapeCast_apply _ hc (ix2 k d) (ix3 (0 : Fin 1) k d) (by
    rw [Shape.rowMajor_val_three, Shape.rowMajor_val_two]
    show ((0 * 4096 + k.val) * 1024 + d.val) = k.val * 1024 + d.val
    simp only [Nat.zero_mul, Nat.zero_add])]
  rw [View.readAt_eq_ld]
  show fh ((Rect.unit (s := S4x4096x1024) (k1_off1 i) S1x4096x1024.size (k1_off1_inb i hc0)).emb (ix3 (0 : Fin 1) k d)) = _
  refine congrArg fh (funext fun a => Fin.ext ?_)
  match a with
  | ⟨0, _⟩ =>
    have h4 : (i 0).val < 4 := (i 0).isLt
    show (BitVec.ofNat 32 (i 0).val).toNat + 1 * 0 = (i 0).val
    rw [BitVec.toNat_ofNat, Nat.mod_eq_of_lt (by omega)]; omega
  | ⟨1, _⟩ => show 0 + 1 * k.val = k.val; omega
  | ⟨2, _⟩ => show 0 + 1 * d.val = d.val; omega

theorem copied_eq_1 (i : grid1.Coords) (hc0 : cond1_0 i) (fh : Vec F S4x4096x1024 .bf16) :
    (ReadAs.same.apply (View.read (Elt F) (((Memref.whole main_v6_1 : Memref sig .tc .hbm S4x4096x1024 .bf16).slice (Rect.unit (s := S4x4096x1024) (k1_off1 i) S1x4096x1024.size (k1_off1_inb i hc0)) (fun _ => rfl)).squeeze S4096x1024 squeezes_S1x4096x1024_S4096x1024).view fh) : Vec F S4096x1024 .bf16) = slab fh (i 0) := by
  funext j
  obtain ⟨k, d, rfl⟩ : ∃ (k : Fin 4096) (d : Fin 1024), j = ix2 k d := ⟨j 0, j 1, eq_ix2 j⟩
  rw [copied_apply_1 i hc0 fh k d]; rfl
theorem copied_eq_2 (i : grid1.Coords) (hc0 : cond1_0 i) (fh : Vec F S4x4096x1024 .bf16) :
    (ReadAs.same.apply (View.read (Elt F) (((Memref.whole main_v6_2 : Memref sig .tc .hbm S4x4096x1024 .bf16).slice (Rect.unit (s := S4x4096x1024) (k1_off1 i) S1x4096x1024.size (k1_off1_inb i hc0)) (fun _ => rfl)).squeeze S4096x1024 squeezes_S1x4096x1024_S4096x1024).view fh) : Vec F S4096x1024 .bf16) = slab fh (i 0) := by
  funext j
  obtain ⟨k, d, rfl⟩ : ∃ (k : Fin 4096) (d : Fin 1024), j = ix2 k d := ⟨j 0, j 1, eq_ix2 j⟩
  rw [copied_apply_2 i hc0 fh k d]; rfl

/-- A load of the whole buffer after one store over the whole buffer reads the payload. -/
theorem readCov_whole {Val : EltTy → Type} [∀ e, Nonempty (Val e)] {S : Shape} {e : EltTy} {sig : RefSig} {κ : Kind} {sp : Space}
    (v : View sig κ sp S e) {off : Fin S.rank → Nat} (h : off = fun _ => 0) (inb : ∀ a, off a + S.size a ≤ S.size a) (w : S.Idx → Val e) :
    v.readCov [(⟨Rect.whole S, w⟩ : View.Piece Val S e)] (Rect.unit off S.size inb).toLoadRect = w := by
  subst h; exact View.readCov_unit_zero v rfl _ w

/-- First query tile of a batch: the key scratch ends holding the batch's keys. -/
theorem sout_A0 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : cond1_0 i) (x0 : Vec F S1x256x1024 .bf16) (fh0 : HbBuf1 (F := F) c hbM1_0) (fh1 : HbBuf1 (F := F) c hbM1_1) :
    sout1_A_0 c i arg2 harg2 arg5 harg5 arg6 harg6 arg7 harg7 hc0 x0 fh0 fh1 = slab fh0 (i 0) := by
  unfold sout1_A_0
  rw [View.read_writes_eq_canon _ _ _ (scover1_A_0 c i arg2 harg2 arg5 harg5 arg6 harg6 arg7 harg7 hc0 x0 fh0 fh1)]
  unfold kernelRun1_A
  dsimp only
  sl_unfold_words
  rw [canon_whole]
  exact copied_eq_1 i hc0 fh0
/-- … and the value scratch the batch's values. -/
theorem sout_A1 (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : cond1_0 i) (x0 : Vec F S1x256x1024 .bf16) (fh0 : HbBuf1 (F := F) c hbM1_0) (fh1 : HbBuf1 (F := F) c hbM1_1) :
    sout1_A_1 c i arg2 harg2 arg5 harg5 arg6 harg6 arg7 harg7 hc0 x0 fh0 fh1 = slab fh1 (i 0) := by
  unfold sout1_A_1
  rw [View.read_writes_eq_canon _ _ _ (scover1_A_1 c i arg2 harg2 arg5 harg5 arg6 harg6 arg7 harg7 hc0 x0 fh0 fh1)]
  unfold kernelRun1_A
  dsimp only
  sl_unfold_words
  rw [canon_whole]
  exact copied_eq_2 i hc0 fh1
/-- … and the output block is the attention of the query block against them. -/
theorem out_A (c : Dev nD) (i : grid1.Coords) (arg2 : Memref sig .tc .vmem S1x256x1024 .bf16) (harg2 : arg2.IsWhole) (arg5 : Memref sig .tc .vmem S1x256x1024 .f32) (harg5 : arg5.IsWhole) (arg6 : Memref sig .tc .vmem S4096x1024 .bf16) (harg6 : arg6.IsWhole) (arg7 : Memref sig .tc .vmem S4096x1024 .bf16) (harg7 : arg7.IsWhole) (hc0 : cond1_0 i) (x0 : Vec F S1x256x1024 .bf16) (fh0 : HbBuf1 (F := F) c hbM1_0) (fh1 : HbBuf1 (F := F) c hbM1_1) :
    out1_A_1 c i arg2 harg2 arg5 harg5 arg6 harg6 arg7 harg7 hc0 x0 fh0 fh1 = k1_pay1 x0 (slab fh0 (i 0)) (slab fh1 (i 0)) := by
  unfold out1_A_1
  rw [View.read_writes_eq_canon _ _ _ (cover1_A_1 c i arg2 harg2 arg5 harg5 arg6 harg6 arg7 harg7 hc0 x0 fh0 fh1)]
  unfold kernelRun1_A
  dsimp only
  sl_unfold_words
  rw [View.canon_unit_zero zeros3]
  simp only [View.readAt_eq_ld, harg2.read_unread, View.ld_unit_zero (S := S1x256x1024) zeros3]
  rw [readCov_whole arg6.view zeros2, readCov_whole arg7.view zeros2]
  exact congrArg₂ (k1_pay1 x0) (copied_eq_1 i hc0 fh0) (copied_eq_2 i hc0 fh1)

/-! ## Point by point, in closed form -/

variable (V : (c : Dev nD) → (b : Ref sig .tc) → Buf (Elt F) ((c : Thread nD τ).loc b))

/-- The batch coordinate of point `t` is `t / 16`. -/
theorem coords0 : ∀ t : Fin cfg1.N, ((grid1.coords t) 0).val = t.val / 16 :=
  (by decide +kernel : ∀ t : Fin grid1.N, ((grid1.coords t) 0).val = t.val / 16)
/-- The batch of position `n`. -/
def bat (n : ℕ) (h : n < cfg1.N) : Fin 4 := ⟨n / 16, by have : cfg1.N = 64 := N_1; omega⟩

/-- After every point the scratch holds the keys and values of the point's batch, and the output block is the
    attention of the point's query block against them — by induction on the point. -/
theorem outsAt_eq (c : Dev nD) : ∀ (n : ℕ) (h : n < cfg1.N),
    outsAt1 V c n h = (k1_pay1 (iblk1 V c 0 ⟨n, h⟩) (slab (V c main_v6_1) (bat n h)) (slab (V c main_v6_2) (bat n h)), slab (V c main_v6_1) (bat n h), slab (V c main_v6_2) (bat n h))
  | 0, h => by
    have e : (grid1.coords (⟨0, h⟩ : Fin cfg1.N)) 0 = bat 0 h := Fin.ext (by rw [coords0]; rfl)
    rw [outsAt1_A V c ⟨0, h⟩ rfl, out_A, sout_A0, sout_A1, e]
  | n + 1, h => by
    by_cases h0 : (n + 1) % 16 = 0
    · have e : (grid1.coords (⟨n + 1, h⟩ : Fin cfg1.N)) 0 = bat (n + 1) h := Fin.ext (by rw [coords0]; rfl)
      rw [outsAt1_A V c ⟨n + 1, h⟩ h0, out_A, sout_A0, sout_A1, e]
    · have hb : bat n (Nat.lt_of_succ_lt h) = bat (n + 1) h := Fin.ext (by show n / 16 = (n + 1) / 16; omega)
      rw [outsAt1_B V c ⟨n + 1, h⟩ h0, out_B]
      show (k1_pay1 _ (outsAt1 V c n _).2.1 (outsAt1 V c n _).2.2, (outsAt1 V c n _).2.1, (outsAt1 V c n _).2.2) = _
      rw [outsAt_eq c n, hb]

end Cert.KernelIdeal.Hand

end
-- ==== Proof.Spec.lean ====
/-
  The specification of the self-attention layer, as one function of its seven arrays, index by index, on the
  extended reals.  For a batch of 4 sequences of 4096 tokens with 1024 features:

    Q = x Wqᵀ + bq,   K = x Wkᵀ + bk,   V = x Wvᵀ + bv          (three affine maps of the features)
    L[n,q,k] = (∑ d, Q[n,q,d] · K[n,k,d]) · c                   (scaled scores)
    M[n,q]   = the maximum of the row L[n,q,·], folded from a start value
    P[n,q,k] = exp (L[n,q,k] − M[n,q])
    S[n,q]   = ∑ k, P[n,q,k]
    A[n,q,k] = P[n,q,k] / S[n,q]
    out[n,q,e] = ∑ k, A[n,q,k] · V[n,k,e]

  The scale `c` and the start value of the maximum are parameters: the two sides of a comparison carry the same
  float words for them, so the words are never evaluated.  Every stage is a small named definition so that another
  arrangement of the same arithmetic can be matched to it stage by stage.
-/
import Idealize.ShloMosaic.PureOps.Ideal
import Idealize.ShloMosaic.Lib.ValueIdx
import Idealize.ShloMosaic.PureOps.Ideal.Laws

noncomputable section

namespace Cert.Spec

open Idealize.ShloMosaic

/-- A token array: batch 4, sequence 4096, features 1024. -/
abbrev Tok : Type := Fin 4 → Fin 4096 → Fin 1024 → EReal
/-- A weight matrix, output feature first. -/
abbrev Mat : Type := Fin 1024 → Fin 1024 → EReal
/-- A bias row. -/
abbrev Row : Type := Fin 1024 → EReal
/-- A score array: batch 4, query 4096, key 4096. -/
abbrev Score : Type := Fin 4 → Fin 4096 → Fin 4096 → EReal
/-- One number per query row. -/
abbrev Stat : Type := Fin 4 → Fin 4096 → EReal

/-- The affine map of the features: `x Wᵀ + b`. -/
def proj (x : Tok) (W : Mat) (b : Row) : Tok :=
  fun n s e => (∑ d : Fin 1024, x n s d * W e d) + b e

/-- The scaled scores of queries against keys. -/
def logit (c : EReal) (Q K : Tok) : Score :=
  fun n q k => (∑ d : Fin 1024, Q n q d * K n k d) * c

/-- The maximum of each row of scores, folded from the start value `b`. -/
def rowMax (b : EReal) (L : Score) : Stat :=
  fun n q => (Finset.univ : Finset (Fin 4096)).fold max b (fun k => L n q k)

/-- The exponential of each score less its row's maximum. -/
def expo (L : Score) (M : Stat) : Score :=
  fun n q k => Ideal.exp (L n q k - M n q)

/-- The sum of each row. -/
def rowSum (P : Score) : Stat :=
  fun n q => ∑ k : Fin 4096, P n q k

/-- Each entry divided by its row's sum. -/
def attn (P : Score) (S : Stat) : Score :=
  fun n q k => Ideal.div (P n q k) (S n q)

/-- The weights applied to the values. -/
def out (A : Score) (V : Tok) : Tok :=
  fun n q e => ∑ k : Fin 4096, A n q k * V n k e

/-- The softmax weights of a score array, rows normalised. -/
def softmax (b : EReal) (L : Score) : Score :=
  attn (expo L (rowMax b L)) (rowSum (expo L (rowMax b L)))

/-- The whole layer. -/
def G (c b : EReal) (x : Tok) (Wq Wk Wv : Mat) (bq bk bv : Row) : Tok :=
  out (softmax b (logit c (proj x Wq bq) (proj x Wk bk))) (proj x Wv bv)

/-! ### Arrays indexed by a shape's indices, read by coordinates -/

/-- A rank-3 array over [4, 4096, 1024] read by coordinates. -/
def tok (v : (⟨3, ![4, 4096, 1024]⟩ : Shape).Idx → EReal) : Tok := fun n s e => v (ValueIdx.ix3 n s e)
/-- A rank-2 array over [1024, 1024] read by coordinates. -/
def mat (v : (⟨2, ![1024, 1024]⟩ : Shape).Idx → EReal) : Mat := fun e d => v (ValueIdx.ix2 e d)
/-- A rank-1 array over [1024] read by its coordinate. -/
def row (v : (⟨1, ![1024]⟩ : Shape).Idx → EReal) : Row := fun e => v (ValueIdx.ix1 e)

/-! ### Small facts about the stages -/

/-- A fold of `max` is at least its start value, so taking the maximum with the start value again changes nothing. -/
theorem max_rowMax (b : EReal) (L : Score) (n : Fin 4) (q : Fin 4096) : max b (rowMax b L n q) = rowMax b L n q :=
  max_eq_right ((Finset.le_fold_max b).2 (Or.inl le_rfl))

/-- Every score of a row is at most the row's maximum. -/
theorem le_rowMax (b : EReal) (L : Score) (n : Fin 4) (q k : Fin 4096) : L n q k ≤ rowMax b L n q :=
  (Finset.le_fold_max (L n q k)).2 (Or.inr ⟨k, Finset.mem_univ k, le_rfl⟩)

/-- The f32 word of −∞ is the bottom of the extended reals. -/
theorem ofBits_ninf : Ideal.ofBits .f32 0xFF800000#32 = (⊥ : EReal) := by
  simp [Ideal.ofBits, Ideal.ieee]

end Cert.Spec

end
-- ==== Proof.LibDense.lean ====
/-
  A matrix product whose one contracted axis is the left operand's columns and the right operand's rows, accumulated
  into the zero matrix and read at an entry: the entry `(p, j)` is the sum over `k` of `lhs (p, k) * rhs (k, j)`, for
  any extents and any dimension record that lists the axes in that way (no batch axis, rows of the left and columns of
  the right kept). Then the same facts about a whole matrix seen BY ITS ROWS — a product, a bias row added to every row, a
  change of float format, a rectifier — each as an equation between functions of the row number, so that a chain of dense
  layers is rewritten from the inside out with no binder in the way. Last, the pointwise transcendentals a gated cell
  uses, read at an index.
-/
import Idealize.ShloMosaic.Lib.Pipeline.Value
import Idealize.ShloMosaic.Lib.ValueIdx
import Idealize.ShloMosaic.Lib.ValueLayout
import Idealize.ShloMosaic.PureOps.Ideal.Laws

namespace Cert.LibDense

open Idealize.ShloMosaic Idealize.ShloMosaic.ValueIdx

/-- The product of an `[M, K]` and a `[K, N]` matrix into the zero accumulator, at `(p, j)`: the sum over the shared
    axis of the products of row `p` of the left with column `j` of the right. -/
theorem matmul2d_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (lhs : FVec Ideal ⟨2, ![M, K]⟩ φ₁) (rhs : FVec Ideal ⟨2, ![K, N]⟩ φ₂) (p : Fin M) (j : Fin N) :
    matmul D prec lhs rhs (constant ⟨2, ![M, N]⟩ .f32 0x00000000#32) (ix2 p j)
      = ∑ k : Fin K, lhs (ix2 p k) * rhs (ix2 k j) := by
  obtain ⟨lc, rc, ln, rn, lb, rb, wf⟩ := D
  dsimp only at hlc hrc hln hrn hlb hrb
  subst hlc hrc hln hrn hlb hrb
  set D : DotDims ⟨2, ![M, K]⟩ ⟨2, ![K, N]⟩ ⟨2, ![M, N]⟩ := ⟨[1], [0], [0], [1], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 k j := funext fun a => Fin.ext (by
    match a with
    | ⟨0, _⟩ => exact (D.rhsIdx_val_of_single rfl (ix2 p j) _).trans hk
    | ⟨1, _⟩ =>
      show (D.rhsIdx (ix2 p j) _ 1).val = j.val
      unfold DotDims.rhsIdx
      rw [dif_neg (show ¬(1 : Fin (⟨2, ![K, N]⟩ : Shape).rank) ∈ D.rhsBatch from List.not_mem_nil),
        dif_pos (show (1 : Fin (⟨2, ![K, N]⟩ : Shape).rank) ∈ D.rhsNonContracting from List.mem_singleton.mpr rfl)]
      rfl)
  rw [el, er]

/-! ## A matrix by its rows -/

/-- Row `p` of a matrix, as a function of the column. -/
def rows {M N : ℕ} {α : Type} (A : (⟨2, ![M, N]⟩ : Shape).Idx → α) (p : Fin M) (j : Fin N) : α := A (ix2 p j)

/-- A `[K, J]` array read as weights from input `k` to output `j`: the array holds the weights transposed. -/
def matT {K J : ℕ} (W : (⟨2, ![K, J]⟩ : Shape).Idx → EReal) (j : Fin J) (k : Fin K) : EReal := W (ix2 k j)

/-- A `[1, J]` array read as the bias of output `j`. -/
def rowv {J : ℕ} (B : (⟨2, ![1, J]⟩ : Shape).Idx → EReal) (j : Fin J) : EReal := B (ix2 (0 : Fin 1) j)

section Rows
variable {M K N : ℕ} {φ φ₁ φ₂ : FTy}

/-- A cast of a matrix to its own shape has the same rows. -/
theorem rows_shapeCast_self {α : Type} (A : (⟨2, ![M, N]⟩ : Shape).Idx → α)
    (h : (⟨2, ![M, N]⟩ : Shape).ShapeCasts ⟨2, ![M, N]⟩) : rows (shapeCast ⟨2, ![M, N]⟩ A h) = rows A := by
  rw [shapeCast_self]

/-- A change of float format keeps every entry. -/
theorem rows_truncf {ψ : FTy} (A : FVec Ideal ⟨2, ![M, N]⟩ φ) (h : ψ.bits < φ.bits) :
    rows (truncf ψ A h : FVec Ideal ⟨2, ![M, N]⟩ ψ) = rows A := rfl

/-- The entrywise maximum with a constant. -/
theorem rows_maximumf_splat (A : FVec Ideal ⟨2, ![M, N]⟩ φ) (z : Ideal φ) :
    rows (maximumf A (broadcast ⟨2, ![M, N]⟩ z)) = fun p j => max (rows A p j) z := rfl

/-- The rows of a product into the zero accumulator: row `p` is the weighted sum of the right operand's rows. -/
theorem rows_matmul (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![M, K]⟩ φ₁) (rhs : FVec Ideal ⟨2, ![K, N]⟩ φ₂) :
    rows (matmul D prec lhs rhs (constant ⟨2, ![M, N]⟩ .f32 0x00000000#32))
      = fun p j => ∑ k : Fin K, rows lhs p k * rows rhs k j :=
  funext fun p => funext fun j => matmul2d_apply D hlc hrc hln hrn hlb hrb prec lhs rhs p j

/-- One row added to every row. -/
theorem rows_addf_rowBias (A : FVec Ideal ⟨2, ![M, N]⟩ φ) (b : FVec Ideal ⟨2, ![1, N]⟩ φ)
    (hb : (⟨2, ![1, N]⟩ : Shape).Broadcasts ⟨2, ![M, N]⟩) :
    rows (addf A (broadcastTo ⟨2, ![M, N]⟩ b hb)) = fun p j => rows A p j + rows b (0 : Fin 1) j := by
  funext p j
  show A (ix2 p j) + broadcastTo ⟨2, ![M, N]⟩ b hb (ix2 p j) = _
  rw [broadcastTo_1b_ab_apply]
  rfl

end Rows

/-! ## Pointwise transcendentals at an index -/

variable {s : Shape} {φ : FTy}

theorem logistic_apply (x : FVec Ideal s φ) (i : s.Idx) : logistic x i = Ideal.logistic (x i) := rfl
theorem tanh_apply (x : FVec Ideal s φ) (i : s.Idx) : tanh x i = Ideal.tanh (x i) := rfl
theorem exp_apply (x : FVec Ideal s φ) (i : s.Idx) : exp x i = Ideal.exp (x i) := rfl
theorem log1p_apply (x : FVec Ideal s φ) (i : s.Idx) : log1p x i = Ideal.log1p (x i) := rfl
theorem absf_apply (x : FVec Ideal s φ) (i : s.Idx) : absf x i = max (x i) (-(x i)) := rfl

end Cert.LibDense
-- ==== Proof.LibDotNT.lean ====
/-
  The product of an `[M, K]` matrix with the TRANSPOSE of an `[N, K]` matrix — a `tpu.matmul` that contracts the last
  axis of both operands, no batch axis — into the zero accumulator, read at `(p, j)` at the ideal values: the sum over
  the shared axis of the products of row `p` of the left operand with row `j` of the right. (A similarity matrix
  `q kᵀ` of two blocks of row vectors is this product.)
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibDotNT

open Idealize.ShloMosaic Idealize.ShloMosaic.ValueIdx

/-- Rows against rows: `(A Bᵀ)(p, j) = ∑ k, A (p, k) * B (j, k)`. -/
theorem matmulNT_apply {M K N : ℕ} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision)
    (lhs : FVec Ideal ⟨2, ![M, K]⟩ φ₁) (rhs : FVec Ideal ⟨2, ![N, K]⟩ φ₂) (p : Fin M) (j : Fin N) :
    matmul D prec lhs rhs (constant ⟨2, ![M, N]⟩ .f32 0x00000000#32) (ix2 p j)
      = ∑ k : Fin K, lhs (ix2 p k) * rhs (ix2 j k) := by
  obtain ⟨lc, rc, ln, rn, lb, rb, wf⟩ := D
  dsimp only at hlc hrc hln hrn hlb hrb
  subst hlc hrc hln hrn hlb hrb
  set D : DotDims ⟨2, ![M, K]⟩ ⟨2, ![N, K]⟩ ⟨2, ![M, N]⟩ := ⟨[1], [1], [0], [0], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 j k := funext fun a => Fin.ext (by
    match a with
    | ⟨0, _⟩ =>
      show (D.rhsIdx (ix2 p j) _ 0).val = j.val
      unfold DotDims.rhsIdx
      rw [dif_neg (show ¬(0 : Fin (⟨2, ![N, K]⟩ : Shape).rank) ∈ D.rhsBatch from List.not_mem_nil),
        dif_pos (show (0 : Fin (⟨2, ![N, K]⟩ : Shape).rank) ∈ D.rhsNonContracting from List.mem_singleton.mpr rfl)]
      rfl
    | ⟨1, _⟩ => exact (D.rhsIdx_val_of_single rfl (ix2 p j) _).trans hk)
  rw [el, er]

end Cert.LibDotNT

end
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.PayAttn.lean ====
/-
  The attention kernel's payload read at an entry, at the ideal values: a softmax over the keys of the scaled
  similarities of a block of queries with all the keys, applied to the values. For the query row `r`:
  the similarity with key `k` is `lg r k = ∑ d, (q (r, d) * c) * key (k, d)` (the query is scaled first, by the
  constant `c` the program spells as a bf16 word); `mx r` is the maximum of the row, folded from the reduction's
  initial word; `ex r k = exp (lg r k - mx r)`; `sm r = ∑ k, ex r k`; and the output entry `(0, r, e)` is
  `∑ k, (ex r k / sm r) * value (k, e)`. At the ideal values a change of float format is the identity.
-/
import proofs.«148255_j55224689492787_2_alg».proof.Proof.Gen.KernelIdeal.Skeleton
import proofs.«148255_j55224689492787_2_alg».proof.Proof.LibDense
import proofs.«148255_j55224689492787_2_alg».proof.Proof.LibDotNT
import proofs.«148255_j55224689492787_2_alg».proof.Proof.LibKeepdims
import proofs.«148255_j55224689492787_2_alg».proof.Proof.LibColumn

noncomputable section

namespace Cert.KernelIdeal.Pay

open Idealize.ShloMosaic Idealize.ShloMosaic.ValueIdx Cert.KernelIdeal Cert.KernelIdeal.Gen

/-- The scale applied to the queries: the bf16 word the program spells, read at the ideal values. -/
def c16 : EReal := (Scalar.ofBits (F := Ideal) .bf16 0x3D00#16 : Ideal .bf16)

/-- The similarity of query row `r` (scaled) with key row `k`. -/
def lg (v3 : Vec Ideal S1x256x1024 .bf16) (v7 : Vec Ideal S4096x1024 .bf16) (r : Fin 256) (k : Fin 4096) : EReal :=
  ∑ d : Fin 1024, (v3 (ix3 0 r d) * c16) * v7 (ix2 k d)

/-- The maximum of row `r` of the similarities: the fold of `max` over the keys from the reduction's initial word. -/
def mx (v3 : Vec Ideal S1x256x1024 .bf16) (v7 : Vec Ideal S4096x1024 .bf16) (r : Fin 256) : EReal :=
  (Finset.univ : Finset (Fin 4096)).fold max (Ideal.ofBits .f32 0xFF800000#32) (fun k : Fin 4096 => lg v3 v7 r k)

/-- The exponential of a similarity less its row's maximum. -/
def ex (v3 : Vec Ideal S1x256x1024 .bf16) (v7 : Vec Ideal S4096x1024 .bf16) (r : Fin 256) (k : Fin 4096) : EReal :=
  Ideal.exp (lg v3 v7 r k - mx v3 v7 r)

/-- The sum of row `r` of the exponentials. -/
def sm (v3 : Vec Ideal S1x256x1024 .bf16) (v7 : Vec Ideal S4096x1024 .bf16) (r : Fin 256) : EReal :=
  ∑ k : Fin 4096, ex v3 v7 r k

/-- The scaled similarities, the program's first product, at `(r, k)`. -/
theorem scores_apply (v3 : Vec Ideal S1x256x1024 .bf16) (v7 : FVec Ideal S4096x1024 .bf16) (r : Fin 256) (k : Fin 4096) :
    matmul dot_S256x1024_S4096x1024_S256x4096_1_1_0_0_n_n none
        (mulf (shapeCast S256x1024 v3 shapeCasts_S1x256x1024_S256x1024)
          (broadcast S256x1024 (Scalar.ofBits (F := Ideal) .bf16 0x3D00#16)))
        v7 (constant S256x4096 .f32 0x00000000#32) (ix2 r k)
      = lg v3 v7 r k := by
  rw [Cert.LibDotNT.matmulNT_apply _ rfl rfl rfl rfl rfl rfl]
  unfold lg c16
  refine Finset.sum_congr rfl fun d _ => ?_
  rw [mulf_apply, broadcast_apply, shapeCast_1ab_ab_apply]

/-- The maximum over the keys of a `[256, 4096]` matrix's row `r`, from the initial word the program gives the reduction. -/
theorem rowmax_apply (src : FVec Ideal S256x4096 .f32) (hφ : FTy.f32 = FTy.f32 ∨ FTy.f32 = FTy.bf16)
    (hacc : (0xFF800000#32 : BitVec 32) = 0xFF800000#32) (r : Fin 256) :
    multiReduction .maximumf [1] S256 src 0xFF800000#32 reduces_S256x4096_S256 hφ hacc (ix1 r)
      = (Finset.univ : Finset (Fin 4096)).fold max (Ideal.ofBits .f32 0xFF800000#32) (fun k : Fin 4096 => src (ix2 r k)) :=
  Cert.LibKeepdims.max_last2_apply src _ _ hφ hacc r

/-- The sum over the keys of a `[256, 4096]` matrix's row `r` (the reduction's initial word is the zero word). -/
theorem rowsum_apply (src : FVec Ideal S256x4096 .f32) (hφ : FTy.f32 = FTy.f32 ∨ FTy.f32 = FTy.bf16)
    (hacc : (0x00000000#32 : BitVec 32) = 0x00000000#32) (r : Fin 256) :
    multiReduction .add [1] S256 src 0x00000000#32 reduces_S256x4096_S256 hφ hacc (ix1 r)
      = ∑ k : Fin 4096, src (ix2 r k) :=
  Cert.LibKeepdims.sum_last2_apply src _ _ hφ hacc r

/-- The attention payload at `(0, r, e)`: the softmax weights of query row `r` applied to column `e` of the values. -/
theorem k1_pay1_apply (v3 : Vec Ideal S1x256x1024 .bf16) (v7 v18 : Vec Ideal S4096x1024 .bf16) (r : Fin 256)
    (e : Fin 1024) :
    k1_pay1 v3 v7 v18 (ix3 0 r e) = ∑ k : Fin 4096, Ideal.div (ex v3 v7 r k) (sm v3 v7 r) * v18 (ix2 k e) := by
  unfold k1_pay1
  rw [shapeCast_ab_1ab_apply, Cert.LibDense.matmul2d_apply _ rfl rfl rfl rfl rfl rfl]
  simp only [truncf_apply, divf_apply, Cert.LibColumn.broadcastTo_a1_ab_apply, Cert.LibColumn.shapeCast_a_a1_apply]
  rw [rowsum_apply]
  simp only [Cert.LibKeepdims.exp_apply, subf_apply, Cert.LibColumn.broadcastTo_a1_ab_apply,
    Cert.LibColumn.shapeCast_a_a1_apply]
  rw [rowmax_apply]
  simp only [scores_apply]
  rfl

end Cert.KernelIdeal.Pay

end
-- ==== Proof.LibScaleSum.lean ====
/-
  A finite nonnegative factor across a finite sum of extended reals, over an abstract index type. On the extended
  reals multiplication does not distribute over addition in general (an infinite factor against terms of both
  signs), but a factor that is nonnegative and not `⊤` does distribute, whatever the signs of the terms and even
  when some of them are infinite. So a scale applied to every term of a sum, or to one operand of every product in
  a sum of products, may be applied once to the total, with no finiteness assumption on the terms.
-/
import Mathlib.Data.EReal.Operations
import Mathlib.Data.EReal.Inv
import Mathlib.Algebra.BigOperators.Group.Finset.Basic

namespace Cert.LibScaleSum

/-- A common right factor `c` with `0 ≤ c`, `c ≠ ⊤` moves across a finite sum of extended reals of any sign. -/
theorem sum_mul_of_nonneg_of_ne_top {ι : Type*} (s : Finset ι) (f : ι → EReal) {c : EReal} (hc : 0 ≤ c)
    (hc' : c ≠ ⊤) : ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top hc hc']

/-- A sum of products whose left operands are all scaled by `c` (`0 ≤ c`, `c ≠ ⊤`) is the sum of the products,
    scaled once: `∑ i, (a i * c) * b i = (∑ i, a i * b i) * c`. -/
theorem sum_scaled_mul {ι : Type*} (s : Finset ι) (a b : ι → EReal) {c : EReal} (hc : 0 ≤ c) (hc' : c ≠ ⊤) :
    ∑ i ∈ s, (a i * c) * b i = (∑ i ∈ s, a i * b i) * c := by
  rw [← sum_mul_of_nonneg_of_ne_top s _ hc hc']
  exact Finset.sum_congr rfl fun i _ => mul_right_comm (a i) c (b i)

end Cert.LibScaleSum
-- ==== Proof.AttnLaw.lean ====
/-
  The attention kernel's payload is the specification's attention, row by row. The kernel scales each query
  entry by the constant before the product with the keys; the specification scales the finished score. The
  constant is the real number 1/32 in both spellings (a bf16 word in the kernel, an f32 word in the
  specification), nonnegative and finite, so it moves across the sum over the features whatever the entries are.
  After that the row maximum, the exponentials, the row sum and the weights are the specification's stages of the
  same scores.
-/
import proofs.«148255_j55224689492787_2_alg».proof.Proof.Spec
import proofs.«148255_j55224689492787_2_alg».proof.Proof.PayAttn
import proofs.«148255_j55224689492787_2_alg».proof.Proof.LibScaleSum

noncomputable section

namespace Cert.KernelIdeal.Pay

open Idealize.ShloMosaic Idealize.ShloMosaic.ValueIdx Cert.KernelIdeal Cert.KernelIdeal.Gen

/-- The bf16 word `0x3D00` denotes the real `1/32`. -/
theorem c16_eq : c16 = ((1 / 32 : ℝ) : EReal) := by
  unfold c16
  show Ideal.ofBits .bf16 0x3D00#16 = _
  simp [Ideal.ofBits, Ideal.ieee, -EReal.coe_mul]; norm_num

/-- The f32 word `0x3D000000` denotes the real `1/32`. -/
theorem ofBits_scale_eq : Ideal.ofBits .f32 0x3D000000#32 = ((1 / 32 : ℝ) : EReal) := by
  simp [Ideal.ofBits, Ideal.ieee, -EReal.coe_mul]; norm_num

/-- The scale is nonnegative and finite. -/
theorem scale_nonneg : (0 : EReal) ≤ ((1 / 32 : ℝ) : EReal) := EReal.coe_nonneg.2 (by norm_num)

/-- The kernel's similarity of a scaled query row with a key row is the specification's scaled score, when the
    query row and the key slab hold the specification's `Q` and `K`. -/
theorem lg_eq_logit (v3 : Vec Ideal S1x256x1024 .bf16) (v7 : Vec Ideal S4096x1024 .bf16) (Q K : Cert.Spec.Tok)
    (n : Fin 4) (q : Fin 4096) (r : Fin 256) (h3 : ∀ d : Fin 1024, v3 (ix3 0 r d) = Q n q d)
    (h7 : ∀ (k : Fin 4096) (d : Fin 1024), v7 (ix2 k d) = K n k d) (k : Fin 4096) :
    lg v3 v7 r k = Cert.Spec.logit (Ideal.ofBits .f32 0x3D000000#32) Q K n q k := by
  unfold lg Cert.Spec.logit
  rw [ofBits_scale_eq, c16_eq,
    ← Cert.LibScaleSum.sum_scaled_mul Finset.univ (fun d => Q n q d) (fun d => K n k d) scale_nonneg
      (EReal.coe_ne_top _)]
  exact Finset.sum_congr rfl fun d _ => by rw [h3, h7]

/-- The attention payload at row `r` of the query block is the specification's output at the global row `q` that
    row holds, for the batch `n` whose keys and values the two slabs hold. -/
theorem k1_pay1_eq_spec (v3 : Vec Ideal S1x256x1024 .bf16) (v7 v18 : Vec Ideal S4096x1024 .bf16)
    (Q K V : Cert.Spec.Tok) (n : Fin 4) (q : Fin 4096) (r : Fin 256) (e : Fin 1024)
    (h3 : ∀ d : Fin 1024, v3 (ix3 0 r d) = Q n q d) (h7 : ∀ (k : Fin 4096) (d : Fin 1024), v7 (ix2 k d) = K n k d)
    (h18 : ∀ (k : Fin 4096) (e : Fin 1024), v18 (ix2 k e) = V n k e) :
    k1_pay1 v3 v7 v18 (ix3 0 r e)
      = Cert.Spec.out (Cert.Spec.softmax (Ideal.ofBits .f32 0xFF800000#32)
          (Cert.Spec.logit (Ideal.ofBits .f32 0x3D000000#32) Q K)) V n q e := by
  have hlg : (fun k : Fin 4096 => lg v3 v7 r k)
      = fun k : Fin 4096 => Cert.Spec.logit (Ideal.ofBits .f32 0x3D000000#32) Q K n q k :=
    funext (lg_eq_logit v3 v7 Q K n q r h3 h7)
  have hmx : mx v3 v7 r = Cert.Spec.rowMax (Ideal.ofBits .f32 0xFF800000#32)
      (Cert.Spec.logit (Ideal.ofBits .f32 0x3D000000#32) Q K) n q :=
    congrArg (fun f => Finset.fold max (Ideal.ofBits .f32 0xFF800000#32) f (Finset.univ : Finset (Fin 4096))) hlg
  have hex : ∀ k : Fin 4096, ex v3 v7 r k
      = Cert.Spec.expo (Cert.Spec.logit (Ideal.ofBits .f32 0x3D000000#32) Q K)
          (Cert.Spec.rowMax (Ideal.ofBits .f32 0xFF800000#32)
            (Cert.Spec.logit (Ideal.ofBits .f32 0x3D000000#32) Q K)) n q k := fun k => by
    unfold ex Cert.Spec.expo
    rw [lg_eq_logit v3 v7 Q K n q r h3 h7 k, hmx]
  have hsm : sm v3 v7 r
      = Cert.Spec.rowSum (Cert.Spec.expo (Cert.Spec.logit (Ideal.ofBits .f32 0x3D000000#32) Q K)
          (Cert.Spec.rowMax (Ideal.ofBits .f32 0xFF800000#32)
            (Cert.Spec.logit (Ideal.ofBits .f32 0x3D000000#32) Q K))) n q :=
    Finset.sum_congr rfl fun k _ => hex k
  rw [k1_pay1_apply]
  unfold Cert.Spec.out Cert.Spec.softmax Cert.Spec.attn
  exact Finset.sum_congr rfl fun k _ => by rw [hex, hsm, h18]

end Cert.KernelIdeal.Pay

end
-- ==== Proof.AttnFinal.lean ====
import proofs.«148255_j55224689492787_2_alg».proof.Proof.Gen.KernelIdeal.Launch
import proofs.«148255_j55224689492787_2_alg».proof.Proof.Gen.KernelIdeal.Skeleton
import proofs.«148255_j55224689492787_2_alg».proof.Proof.Gen.KernelIdeal.Points
import proofs.«148255_j55224689492787_2_alg».proof.Proof.AttnValue
import proofs.«148255_j55224689492787_2_alg».proof.Proof.AttnLaw
import Idealize.ShloMosaic.Lib.Pipeline.Value
import Idealize.ShloMosaic.Lib.ValueIdx
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

variable (V : (c : Dev nD) → (b : Ref sig .tc) → Buf (Elt Ideal) ((c : Thread nD τ).loc b))

/-! # The attention region's result array, as one function of the three arrays it reads -/

/-- Scaled scores, row softmax, weighted sum of values: the specification's attention of three [4, 4096, 1024] arrays. -/
def attnOf (q k v : S4x4096x1024.Idx → EReal) : S4x4096x1024.Idx → EReal := fun i =>
  Cert.Spec.out (Cert.Spec.softmax (Ideal.ofBits .f32 0xFF800000#32) (Cert.Spec.logit (Ideal.ofBits .f32 0x3D000000#32) (Cert.Spec.tok q) (Cert.Spec.tok k))) (Cert.Spec.tok v) (i 0) (i 1) (i 2)

/-- Point `t` is batch `t / 16`, query tile `t % 16`, for both windows. -/
theorem idx_facts1 : ∀ t : Fin cfg1.N, win1_0.index t (0 : Fin 3) = t.val / 16 ∧ win1_0.index t (1 : Fin 3) = t.val % 16 ∧ win1_0.index t (2 : Fin 3) = 0
    ∧ win1_1.index t (0 : Fin 3) = t.val / 16 ∧ win1_1.index t (1 : Fin 3) = t.val % 16 ∧ win1_1.index t (2 : Fin 3) = 0 :=
  (by decide +kernel : ∀ t : Fin grid1.N, win1_0.index t (0 : Fin 3) = t.val / 16 ∧ win1_0.index t (1 : Fin 3) = t.val % 16 ∧ win1_0.index t (2 : Fin 3) = 0
    ∧ win1_1.index t (0 : Fin 3) = t.val / 16 ∧ win1_1.index t (1 : Fin 3) = t.val % 16 ∧ win1_1.index t (2 : Fin 3) = 0)

/-- One block: query rows `qi * 256 + r` of batch `n`, against the batch's keys and values. -/
theorem block_eq (x0 : Vec Ideal S1x256x1024 .bf16) (q k v : S4x4096x1024.Idx → EReal) (n : Fin 4) (qi : Fin 16)
    (hx : ∀ (r : Fin 256) (d : Fin 1024), x0 (ix3 0 r d) = q (ix3 n ⟨qi.val * 256 + r.val, by have := qi.isLt; have := r.isLt; omega⟩ d))
    (jj : S1x256x1024.Idx) :
    k1_pay1 x0 (slab k n) (slab v n) jj = attnOf q k v (ix3 n ⟨qi.val * 256 + (jj 1).val, by have := qi.isLt; have h : (jj 1).val < 256 := (jj 1).isLt; omega⟩ (jj 2)) := by
  obtain ⟨z, r, e, rfl⟩ : ∃ (z : Fin 1) (r : Fin 256) (e : Fin 1024), jj = ix3 z r e := ⟨jj 0, jj 1, jj 2, eq_ix3 jj⟩
  obtain rfl : z = 0 := Subsingleton.elim _ _
  rw [Cert.KernelIdeal.Pay.k1_pay1_eq_spec x0 (slab k n) (slab v n) (Cert.Spec.tok q) (Cert.Spec.tok k) (Cert.Spec.tok v) n
    ⟨qi.val * 256 + r.val, by have := qi.isLt; have := r.isLt; omega⟩ r e (fun d => hx r d) (fun _ _ => rfl) (fun _ _ => rfl)]
  rfl

theorem flushed1_eq (c : Dev nD) (t : Fin cfg1.N) :
    (dat1 V c).flushed 1 t = ((cfg1.win 1).blk t).view.read (Elt Ideal) (attnOf (V c main_v6_0) (V c main_v6_1) (V c main_v6_2)) := by
  show (cfg1.win 1).cut (grid1.coords t) ((dat1 V c).after 1 t) = _
  rw [after1_1, outsAt_eq]
  funext j
  obtain ⟨e0, e1, e2, e3, e4, e5⟩ := idx_facts1 t
  have hN : t.val < 64 := lt_of_lt_of_eq t.isLt N_1
  refine (block_eq (iblk1 V c 0 t) (V c main_v6_0) (V c main_v6_1) (V c main_v6_2) (bat t.val t.isLt) ⟨t.val % 16, by omega⟩ ?_ j).trans ?_
  · intro r d
    show V c main_v6_0 (((cfg1.win 0).blk t).view.emb (ix3 (0 : Fin 1) r d)) = _
    refine congrArg (V c main_v6_0) (funext fun a => Fin.ext ?_)
    match a with
    | ⟨0, _⟩ => show win1_0.index t (0 : Fin 3) * 1 + 1 * 0 = t.val / 16; omega
    | ⟨1, _⟩ => show win1_0.index t (1 : Fin 3) * 256 + 1 * r.val = t.val % 16 * 256 + r.val; omega
    | ⟨2, _⟩ => show win1_0.index t (2 : Fin 3) * 1024 + 1 * d.val = d.val; omega
  · show attnOf _ _ _ _ = attnOf _ _ _ (((cfg1.win 1).blk t).view.emb j)
    refine congrArg (attnOf (V c main_v6_0) (V c main_v6_1) (V c main_v6_2)) (funext fun a => Fin.ext ?_)
    have hj0 : (j 0).val < 1 := (j 0).isLt
    match a with
    | ⟨0, _⟩ => show t.val / 16 = win1_1.index t (0 : Fin 3) * 1 + 1 * (j 0).val; omega
    | ⟨1, _⟩ => show t.val % 16 * 256 + (j 1).val = win1_1.index t (1 : Fin 3) * 256 + 1 * (j 1).val; omega
    | ⟨2, _⟩ => show (j 2).val = win1_1.index t (2 : Fin 3) * 1024 + 1 * (j 2).val; omega

/-- An index of the result array is in point `t`'s block iff each coordinate is in the block's range. -/
theorem mem_blk1 (t : Fin cfg1.N) (i : S4x4096x1024.Idx) :
    i ∈ ((cfg1.win 1).blk t).view.set ↔ ∀ a : Fin 3, win1_1.index t a * S1x256x1024.size a ≤ (i a).val ∧ (i a).val < win1_1.index t a * S1x256x1024.size a + S1x256x1024.size a := by
  show i ∈ ((View.whole main_v7).slice (win1_1.rect t)).set ↔ _
  rw [View.set_slice_whole, Rect.mem_set_unit]
  exact Iff.rfl

/-- The result array after the region: the attention of the three arrays. Row `s` of batch `n` is written by the
    point `16 n + s / 256`. -/
theorem attn_final (c : Dev nD) : (dat1 V c).arrAt 1 cfg1.N = attnOf (V c main_v6_0) (V c main_v6_1) (V c main_v6_2) :=
  (dat1 V c).arrAt_eq_of_cover 1 _ (fun t _ => flushed1_eq V c t) fun i => by
    have h0 : (i 0).val < 4 := (i 0).isLt
    have h1 : (i 1).val < 4096 := (i 1).isLt
    have h2 : (i 2).val < 1024 := (i 2).isLt
    have hN : cfg1.N = 64 := N_1
    obtain ⟨e0, e1, e2, e3, e4, e5⟩ := idx_facts1 ⟨(i 0).val * 16 + (i 1).val / 256, by omega⟩
    refine ⟨⟨(i 0).val * 16 + (i 1).val / 256, by omega⟩, flush1_1 _, ?_⟩
    rw [mem_blk1]
    intro a
    match a with
    | ⟨0, _⟩ =>
      show win1_1.index _ (0 : Fin 3) * 1 ≤ (i 0).val ∧ (i 0).val < win1_1.index _ (0 : Fin 3) * 1 + 1
      rw [e3]; dsimp only; omega
    | ⟨1, _⟩ =>
      show win1_1.index _ (1 : Fin 3) * 256 ≤ (i 1).val ∧ (i 1).val < win1_1.index _ (1 : Fin 3) * 256 + 256
      rw [e4]; dsimp only; omega
    | ⟨2, _⟩ =>
      show win1_1.index _ (2 : Fin 3) * 1024 ≤ (i 2).val ∧ (i 2).val < win1_1.index _ (2 : Fin 3) * 1024 + 1024
      rw [e5]; omega

end Cert.KernelIdeal.Hand

end
-- ==== Proof.PayProj.lean ====
/-
  The projection kernel's payloads read at an entry, at the ideal values. Each of the three projections is a dense layer:
  the activation block `x0` (its leading unit axis dropped) times a weight matrix, plus a bias row added to every row.
  At the ideal values a change of float format is the identity, so the entry `(0, p, q)` of a stored payload is
  `∑ d, x0 (0, p, d) * w (d, q) + b q`.
-/
import proofs.«148255_j55224689492787_2_alg».proof.Proof.Gen.KernelIdeal.Skeleton
import proofs.«148255_j55224689492787_2_alg».proof.Proof.LibDense

noncomputable section

namespace Cert.KernelIdeal.Pay

open Idealize.ShloMosaic Idealize.ShloMosaic.ValueIdx Cert.KernelIdeal Cert.KernelIdeal.Gen

/-- The activation block as a matrix: entry `(p, d)` is the block's entry `(0, p, d)`. -/
theorem k0_pay2_apply (x0 : Vec Ideal S1x1024x1024 .f32) (p d : Fin 1024) :
    k0_pay2 x0 (ix2 p d) = x0 (ix3 0 p d) := by
  unfold k0_pay2
  rw [truncf_apply, shapeCast_1ab_ab_apply]

/-- The dense layer the three projections share, at `(p, q)`: the product's entry plus the bias of column `q`. -/
theorem dense_apply (x0 : Vec Ideal S1x1024x1024 .f32) (b : Vec Ideal S1024 .f32) (w : Vec Ideal S1024x1024 .bf16)
    (p q : Fin 1024) :
    k0_pay5 x0 b w (ix2 p q) = (∑ d : Fin 1024, x0 (ix3 0 p d) * w (ix2 d q)) + b (ix1 q) := by
  unfold k0_pay5
  rw [addf_apply, Cert.LibDense.matmul2d_apply _ rfl rfl rfl rfl rfl rfl, broadcastTo_1b_ab_apply, shapeCast_self,
    shapeCast_self, shapeCast_a_1a_apply]
  simp only [k0_pay2_apply]

theorem k0_pay3_apply (x0 : Vec Ideal S1x1024x1024 .f32) (b : Vec Ideal S1024 .f32) (w : Vec Ideal S1024x1024 .bf16)
    (p q : Fin 1024) :
    k0_pay3 x0 b w (ix3 0 p q) = (∑ d : Fin 1024, x0 (ix3 0 p d) * w (ix2 d q)) + b (ix1 q) := by
  unfold k0_pay3
  rw [shapeCast_ab_1ab_apply, truncf_apply, addf_apply, Cert.LibDense.matmul2d_apply _ rfl rfl rfl rfl rfl rfl,
    broadcastTo_1b_ab_apply, shapeCast_self, shapeCast_self, shapeCast_a_1a_apply]
  simp only [k0_pay2_apply]

theorem k0_pay4_apply (x0 : Vec Ideal S1x1024x1024 .f32) (b : Vec Ideal S1024 .f32) (w : Vec Ideal S1024x1024 .bf16)
    (p q : Fin 1024) :
    k0_pay4 x0 b w (ix3 0 p q) = (∑ d : Fin 1024, x0 (ix3 0 p d) * w (ix2 d q)) + b (ix1 q) := by
  unfold k0_pay4
  rw [shapeCast_ab_1ab_apply, truncf_apply, addf_apply, Cert.LibDense.matmul2d_apply _ rfl rfl rfl rfl rfl rfl,
    broadcastTo_1b_ab_apply, shapeCast_self, shapeCast_self, shapeCast_a_1a_apply]
  simp only [k0_pay2_apply]

theorem k0_pay1_pay5_apply (x0 : Vec Ideal S1x1024x1024 .f32) (b : Vec Ideal S1024 .f32) (w : Vec Ideal S1024x1024 .bf16)
    (p q : Fin 1024) :
    k0_pay1 (k0_pay5 x0 b w) (ix3 0 p q) = (∑ d : Fin 1024, x0 (ix3 0 p d) * w (ix2 d q)) + b (ix1 q) := by
  unfold k0_pay1
  rw [shapeCast_ab_1ab_apply, truncf_apply, dense_apply]

end Cert.KernelIdeal.Pay

end
-- ==== Proof.ProjFinal.lean ====
/- The projection region's three result arrays as whole-array functions, at the ideal values: after the pipeline's
   sixteen write-backs, entry `(n, s, e)` of each result is the dense layer `∑ d, x (n, s, d) * w (d, e) + b e` of the
   activation array, that projection's weight matrix and its bias, all as the region finds them. Point `t` of the 4×4
   grid has coordinates `(t / 4, t % 4)`; it reads rows `1024 (t % 4) … 1024 (t % 4) + 1023` of batch `t / 4`, the whole
   weight matrices and the whole biases, and writes the same rows of the same batch of each result. -/
import proofs.«148255_j55224689492787_2_alg».proof.Proof.ProjBody
import proofs.«148255_j55224689492787_2_alg».proof.Proof.PayProj
import Idealize.ShloMosaic.Lib.Pipeline.Value
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## Offsets that are zero -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The dense layer, index by index -/

/-- Entry `(n, s, e)` of a dense layer over the model axis: row `(n, s)` of the activations against column `e` of the
    weights, plus the bias of column `e`. -/
def dense (X : S4x4096x1024.Idx → EReal) (W : S1024x1024.Idx → EReal) (B : S1024.Idx → EReal) : S4x4096x1024.Idx → EReal :=
  fun i => (∑ d : Fin 1024, X (ix3 (i 0 : Fin 4) (i 1 : Fin 4096) d) * W (ix2 d (i 2 : Fin 1024))) + B (ix1 (i 2 : Fin 1024))

theorem dense_apply (X : S4x4096x1024.Idx → EReal) (W : S1024x1024.Idx → EReal) (B : S1024.Idx → EReal)
    (n : Fin 4) (s : Fin 4096) (e : Fin 1024) :
    dense X W B (ix3 n s e) = (∑ d : Fin 1024, X (ix3 n s d) * W (ix2 d e)) + B (ix1 e) := rfl

/-- The same entry with the coordinates as arguments: a reducible name for the sum, so that a statement can apply it to
    arrays whose types are the buffers' (equal to the literal function types only after unfolding the signature). -/
abbrev denseAt (X : S4x4096x1024.Idx → EReal) (W : S1024x1024.Idx → EReal) (B : S1024.Idx → EReal)
    (n : Fin 4) (s : Fin 4096) (e : Fin 1024) : EReal :=
  (∑ d : Fin 1024, X (ix3 n s d) * W (ix2 d e)) + B (ix1 e)

/-! ## The index maps over the grid -/

/-- The printed index maps, decided over the sixteen points: the activation window and the three result windows sit at
    block `(t / 4, t % 4, 0)`, the weight and bias windows at block zero. -/
theorem idx_facts0 : ∀ t : Fin cfg0.N,
    win0_0.index t (0 : Fin 3) = t.val / 4 ∧ win0_0.index t (1 : Fin 3) = t.val % 4 ∧ win0_0.index t (2 : Fin 3) = 0
    ∧ win0_7.index t (0 : Fin 3) = t.val / 4 ∧ win0_7.index t (1 : Fin 3) = t.val % 4 ∧ win0_7.index t (2 : Fin 3) = 0
    ∧ win0_8.index t (0 : Fin 3) = t.val / 4 ∧ win0_8.index t (1 : Fin 3) = t.val % 4 ∧ win0_8.index t (2 : Fin 3) = 0
    ∧ win0_9.index t (0 : Fin 3) = t.val / 4 ∧ win0_9.index t (1 : Fin 3) = t.val % 4 ∧ win0_9.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0 :=
  (by decide +kernel : ∀ t : Fin grid0.N, _)

/-! ## The input blocks, read off the arrays -/

/-- The activation block at point `t`: entry `y` is the array's entry at batch `t / 4`, row `1024 (t % 4) + y 1`,
    column `y 2`. -/
theorem iblk0_0_apply (c : Dev nD) (t : Fin cfg0.N) (y : S1x1024x1024.Idx) (k : S4x4096x1024.Idx)
    (hk0 : (k 0).val = t.val / 4) (hk1 : (k 1).val = t.val % 4 * 1024 + (y 1).val) (hk2 : (k 2).val = (y 2).val) :
    (iblk0 V c 0 t : Vec Ideal S1x1024x1024 .f32) y = (V c main_arg0 : S4x4096x1024.Idx → EReal) k := by
  obtain ⟨e0, e1, e2, -⟩ := idx_facts0 t
  have hy : (y 0).val < 1 := (y 0).isLt
  unfold iblk0
  rw [View.read_apply]
  show V c main_arg0 _ = V c main_arg0 _
  congr 1
  funext a
  apply Fin.ext
  match a with
  | ⟨0, _⟩ => show win0_0.index t (0 : Fin 3) * 1 + 1 * (y 0).val = (k 0).val; omega
  | ⟨1, _⟩ => show win0_0.index t (1 : Fin 3) * 1024 + 1 * (y 1).val = (k 1).val; omega
  | ⟨2, _⟩ => show win0_0.index t (2 : Fin 3) * 1024 + 1 * (y 2).val = (k 2).val; omega

/-- Weight window 1's block is its whole array, at every point. -/
theorem iblk0_1_eq (c : Dev nD) (t : Fin cfg0.N) :
    (iblk0 V c 1 t : Vec Ideal S1024x1024 .bf16) = (V c main_v1 : S1024x1024.Idx → EReal) := by
  obtain ⟨-, -, -, -, -, -, -, -, -, -, -, -, f10, f11, f20, f21, f30, f31, f4, f5, f6⟩ := idx_facts0 t
  funext y
  unfold iblk0
  rw [View.read_apply]
  show V c main_v1 _ = V c main_v1 _
  congr 1
  funext a
  apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- Weight window 2's block is its whole array, at every point. -/
theorem iblk0_2_eq (c : Dev nD) (t : Fin cfg0.N) :
    (iblk0 V c 2 t : Vec Ideal S1024x1024 .bf16) = (V c main_v3 : S1024x1024.Idx → EReal) := by
  obtain ⟨-, -, -, -, -, -, -, -, -, -, -, -, f10, f11, f20, f21, f30, f31, f4, f5, f6⟩ := idx_facts0 t
  funext y
  unfold iblk0
  rw [View.read_apply]
  show V c main_v3 _ = V c main_v3 _
  congr 1
  funext a
  apply Fin.ext
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- Weight window 3's block is its whole array, at every point. -/
theorem iblk0_3_eq (c : Dev nD) (t : Fin cfg0.N) :
    (iblk0 V c 3 t : Vec Ideal S1024x1024 .bf16) = (V c main_v5 : S1024x1024.Idx → EReal) := by
  obtain ⟨-, -, -, -, -, -, -, -, -, -, -, -, f10, f11, f20, f21, f30, f31, f4, f5, f6⟩ := idx_facts0 t
  funext y
  unfold iblk0
  rw [View.read_apply]
  show V c main_v5 _ = V c main_v5 _
  congr 1
  funext a
  apply Fin.ext
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- Bias window 4's block is its whole array, at every point. -/
theorem iblk0_4_eq (c : Dev nD) (t : Fin cfg0.N) :
    (iblk0 V c 4 t : Vec Ideal S1024 .f32) = (V c main_arg4 : S1024.Idx → EReal) := by
  obtain ⟨-, -, -, -, -, -, -, -, -, -, -, -, f10, f11, f20, f21, f30, f31, f4, f5, f6⟩ := idx_facts0 t
  funext y
  unfold iblk0
  rw [View.read_apply]
  show V c main_arg4 _ = V c main_arg4 _
  congr 1
  funext a
  apply Fin.ext
  match a with
  | ⟨0, _⟩ => show win0_4.index t (0 : Fin 1) * 1024 + 1 * (y 0).val = (y 0).val; omega

/-- Bias window 5's block is its whole array, at every point. -/
theorem iblk0_5_eq (c : Dev nD) (t : Fin cfg0.N) :
    (iblk0 V c 5 t : Vec Ideal S1024 .f32) = (V c main_arg5 : S1024.Idx → EReal) := by
  obtain ⟨-, -, -, -, -, -, -, -, -, -, -, -, f10, f11, f20, f21, f30, f31, f4, f5, f6⟩ := idx_facts0 t
  funext y
  unfold iblk0
  rw [View.read_apply]
  show V c main_arg5 _ = V c main_arg5 _
  congr 1
  funext a
  apply Fin.ext
  match a with
  | ⟨0, _⟩ => show win0_5.index t (0 : Fin 1) * 1024 + 1 * (y 0).val = (y 0).val; omega

/-- Bias window 6's block is its whole array, at every point. -/
theorem iblk0_6_eq (c : Dev nD) (t : Fin cfg0.N) :
    (iblk0 V c 6 t : Vec Ideal S1024 .f32) = (V c main_arg6 : S1024.Idx → EReal) := by
  obtain ⟨-, -, -, -, -, -, -, -, -, -, -, -, f10, f11, f20, f21, f30, f31, f4, f5, f6⟩ := idx_facts0 t
  funext y
  unfold iblk0
  rw [View.read_apply]
  show V c main_arg6 _ = V c main_arg6 _
  congr 1
  funext a
  apply Fin.ext
  match a with
  | ⟨0, _⟩ => show win0_6.index t (0 : Fin 1) * 1024 + 1 * (y 0).val = (y 0).val; omega

/-! ## One point's block of a result -/

/-- A payload that is a dense layer of its blocks (`hP`), on an activation block that is rows `1024 r …` of batch `n` of
    `X` and on the whole weights and bias, is at entry `j` the dense layer of the arrays at the entry `i` of batch `n`,
    row `1024 r + j 1`, column `j 2`. -/
theorem block_of_dense
    (P : Vec Ideal S1x1024x1024 .f32 → Vec Ideal S1024 .f32 → Vec Ideal S1024x1024 .bf16 → S1x1024x1024.Idx → EReal)
    (hP : ∀ (x0 : Vec Ideal S1x1024x1024 .f32) (b : Vec Ideal S1024 .f32) (w : Vec Ideal S1024x1024 .bf16) (p q : Fin 1024),
      P x0 b w (ix3 0 p q) = (∑ d : Fin 1024, x0 (ix3 0 p d) * w (ix2 d q)) + b (ix1 q))
    (x0 : Vec Ideal S1x1024x1024 .f32) (b : Vec Ideal S1024 .f32) (w : Vec Ideal S1024x1024 .bf16)
    (X : S4x4096x1024.Idx → EReal) (W : S1024x1024.Idx → EReal) (B : S1024.Idx → EReal) (n r : ℕ)
    (hx : ∀ (y : S1x1024x1024.Idx) (k : S4x4096x1024.Idx), (k 0).val = n → (k 1).val = r * 1024 + (y 1).val →
      (k 2).val = (y 2).val → x0 y = X k)
    (hw : w = W) (hb : b = B) (j : S1x1024x1024.Idx) (i : S4x4096x1024.Idx)
    (h0 : (i 0).val = n) (h1 : (i 1).val = r * 1024 + (j 1).val) (h2 : (i 2).val = (j 2).val) :
    P x0 b w j = dense X W B i := by
  subst hw hb
  obtain ⟨a, p, q, rfl⟩ : ∃ (a : Fin 1) (p q : Fin 1024), j = ix3 a p q := ⟨_, _, _, eq_ix3 j⟩
  obtain rfl : a = 0 := Subsingleton.elim _ _
  obtain ⟨n', s, e, rfl⟩ : ∃ (n' : Fin 4) (s : Fin 4096) (e : Fin 1024), i = ix3 n' s e := ⟨_, _, _, eq_ix3 i⟩
  have he : e = q := Fin.ext h2
  subst he
  rw [hP, dense_apply]
  congr 1
  refine Finset.sum_congr rfl fun d _ => ?_
  congr 1
  exact hx _ _ h0 h1 rfl

/-! ## Result window 7 -/

/-- WHAT POINT `t` WRITES BACK for window 7 is block `t` of the dense layer of the arrays as the region finds them. -/
theorem flushed7_eq (c : Dev nD) (t : Fin cfg0.N) :
    (dat0 V c).flushed 7 t = ((cfg0.win 7).blk t).view.read (Elt Ideal)
      (dense (V c main_arg0) (V c main_v1) (V c main_arg4)) := by
  show (cfg0.win 7).cut (grid0.coords t) ((dat0 V c).after 7 t) = _
  rw [after0_7]
  unfold out0_7
  rw [View.canon_unit_zero hz3]
  simp only [View.ld_unit_zero (S := S1x1024x1024) hz3, View.ld_unit_zero (S := S1024) hz1, View.ld_unit_zero (S := S1024x1024) hz2]
  have hf := idx_facts0 t
  funext j
  have hj : (j 0).val < 1 := (j 0).isLt
  refine block_of_dense k0_pay3 Pay.k0_pay3_apply _ _ _ _ _ _ (t.val / 4) (t.val % 4)
    (fun y k h0 h1 h2 => iblk0_0_apply V c t y k h0 h1 h2) (iblk0_1_eq V c t) (iblk0_4_eq V c t) j
    (((cfg0.win 7).blk t).view.emb j) ?_ ?_ ?_
  · show win0_7.index t (0 : Fin 3) * 1 + 1 * (j 0).val = t.val / 4; omega
  · show win0_7.index t (1 : Fin 3) * 1024 + 1 * (j 1).val = t.val % 4 * 1024 + (j 1).val; omega
  · show win0_7.index t (2 : Fin 3) * 1024 + 1 * (j 2).val = (j 2).val; omega

/-- An index of the array is in point `t`'s block iff each coordinate is in the block's range on its axis. -/
theorem mem_blk7 (t : Fin cfg0.N) (i : S4x4096x1024.Idx) :
    i ∈ ((cfg0.win 7).blk t).view.set ↔ ∀ a : Fin 3, win0_7.index t a * S1x1024x1024.size a ≤ (i a).val ∧ (i a).val < win0_7.index t a * S1x1024x1024.size a + S1x1024x1024.size a := by
  show i ∈ ((View.whole main_v6_0).slice (win0_7.rect t)).set ↔ _
  rw [View.set_slice_whole, Rect.mem_set_unit]
  exact Iff.rfl

/-- Every index of the array is in some point's block: row `s` of batch `n` in that of point `4 n + s / 1024`. -/
theorem cover7 (i : S4x4096x1024.Idx) :
    ∃ t : Fin cfg0.N, (cfg0.win 7).flush t = true ∧ i ∈ ((cfg0.win 7).blk t).view.set := by
  have h0 : (i 0).val < 4 := (i 0).isLt
  have h1 : (i 1).val < 4096 := (i 1).isLt
  have h2 : (i 2).val < 1024 := (i 2).isLt
  have hN : cfg0.N = 16 := N_0
  obtain ⟨t, ht⟩ : ∃ t : Fin cfg0.N, t.val = 4 * (i 0).val + (i 1).val / 1024 := ⟨⟨4 * (i 0).val + (i 1).val / 1024, by omega⟩, rfl⟩
  have hf := idx_facts0 t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 1024 ≤ (i 2).val ∧ (i 2).val < win0_7.index t (2 : Fin 3) * 1024 + 1024; omega

/-- THE ARRAY after the sixteen points: the dense layer of the arrays as the region finds them. -/
theorem final7 (c : Dev nD) :
    (dat0 V c).arrAt 7 cfg0.N = dense (V c main_arg0) (V c main_v1) (V c main_arg4) :=
  (dat0 V c).arrAt_eq_of_cover 7 (dense (V c main_arg0) (V c main_v1) (V c main_arg4)) (fun t _ => flushed7_eq V c t) cover7

/-- Index by index: entry `(n, s, e)` is `∑ d, x (n, s, d) * w (d, e) + b e` of the arrays as the region finds them. -/
theorem final7_apply (c : Dev nD) (n : Fin 4) (s : Fin 4096) (e : Fin 1024) :
    (dat0 V c).arrAt 7 cfg0.N (ix3 n s e) = denseAt (V c main_arg0) (V c main_v1) (V c main_arg4) n s e := by
  rw [final7]; rfl

/-- The same, over names for the three arrays (any functions of the literal index types the arrays are equal to). -/
theorem final7_at (c : Dev nD) (X : S4x4096x1024.Idx → EReal) (W : S1024x1024.Idx → EReal) (B : S1024.Idx → EReal)
    (hX : V c main_arg0 = X) (hW : V c main_v1 = W) (hB : V c main_arg4 = B) (n : Fin 4) (s : Fin 4096) (e : Fin 1024) :
    (dat0 V c).arrAt 7 cfg0.N (ix3 n s e) = (∑ d : Fin 1024, X (ix3 n s d) * W (ix2 d e)) + B (ix1 e) := by
  subst hX hW hB
  exact final7_apply V c n s e

/-! ## Result window 8 -/

/-- WHAT POINT `t` WRITES BACK for window 8 is block `t` of the dense layer of the arrays as the region finds them. -/
theorem flushed8_eq (c : Dev nD) (t : Fin cfg0.N) :
    (dat0 V c).flushed 8 t = ((cfg0.win 8).blk t).view.read (Elt Ideal)
      (dense (V c main_arg0) (V c main_v3) (V c main_arg5)) := by
  show (cfg0.win 8).cut (grid0.coords t) ((dat0 V c).after 8 t) = _
  rw [after0_8]
  unfold out0_8
  rw [View.canon_unit_zero hz3]
  simp only [View.ld_unit_zero (S := S1x1024x1024) hz3, View.ld_unit_zero (S := S1024) hz1, View.ld_unit_zero (S := S1024x1024) hz2]
  have hf := idx_facts0 t
  funext j
  have hj : (j 0).val < 1 := (j 0).isLt
  refine block_of_dense k0_pay4 Pay.k0_pay4_apply _ _ _ _ _ _ (t.val / 4) (t.val % 4)
    (fun y k h0 h1 h2 => iblk0_0_apply V c t y k h0 h1 h2) (iblk0_2_eq V c t) (iblk0_5_eq V c t) j
    (((cfg0.win 8).blk t).view.emb j) ?_ ?_ ?_
  · show win0_8.index t (0 : Fin 3) * 1 + 1 * (j 0).val = t.val / 4; omega
  · show win0_8.index t (1 : Fin 3) * 1024 + 1 * (j 1).val = t.val % 4 * 1024 + (j 1).val; omega
  · show win0_8.index t (2 : Fin 3) * 1024 + 1 * (j 2).val = (j 2).val; omega

/-- An index of the array is in point `t`'s block iff each coordinate is in the block's range on its axis. -/
theorem mem_blk8 (t : Fin cfg0.N) (i : S4x4096x1024.Idx) :
    i ∈ ((cfg0.win 8).blk t).view.set ↔ ∀ a : Fin 3, win0_8.index t a * S1x1024x1024.size a ≤ (i a).val ∧ (i a).val < win0_8.index t a * S1x1024x1024.size a + S1x1024x1024.size a := by
  show i ∈ ((View.whole main_v6_1).slice (win0_8.rect t)).set ↔ _
  rw [View.set_slice_whole, Rect.mem_set_unit]
  exact Iff.rfl

/-- Every index of the array is in some point's block: row `s` of batch `n` in that of point `4 n + s / 1024`. -/
theorem cover8 (i : S4x4096x1024.Idx) :
    ∃ t : Fin cfg0.N, (cfg0.win 8).flush t = true ∧ i ∈ ((cfg0.win 8).blk t).view.set := by
  have h0 : (i 0).val < 4 := (i 0).isLt
  have h1 : (i 1).val < 4096 := (i 1).isLt
  have h2 : (i 2).val < 1024 := (i 2).isLt
  have hN : cfg0.N = 16 := N_0
  obtain ⟨t, ht⟩ : ∃ t : Fin cfg0.N, t.val = 4 * (i 0).val + (i 1).val / 1024 := ⟨⟨4 * (i 0).val + (i 1).val / 1024, by omega⟩, rfl⟩
  have hf := idx_facts0 t
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 1024 ≤ (i 2).val ∧ (i 2).val < win0_8.index t (2 : Fin 3) * 1024 + 1024; omega

/-- THE ARRAY after the sixteen points: the dense layer of the arrays as the region finds them. -/
theorem final8 (c : Dev nD) :
    (dat0 V c).arrAt 8 cfg0.N = dense (V c main_arg0) (V c main_v3) (V c main_arg5) :=
  (dat0 V c).arrAt_eq_of_cover 8 (dense (V c main_arg0) (V c main_v3) (V c main_arg5)) (fun t _ => flushed8_eq V c t) cover8

/-- Index by index: entry `(n, s, e)` is `∑ d, x (n, s, d) * w (d, e) + b e` of the arrays as the region finds them. -/
theorem final8_apply (c : Dev nD) (n : Fin 4) (s : Fin 4096) (e : Fin 1024) :
    (dat0 V c).arrAt 8 cfg0.N (ix3 n s e) = denseAt (V c main_arg0) (V c main_v3) (V c main_arg5) n s e := by
  rw [final8]; rfl

/-- The same, over names for the three arrays (any functions of the literal index types the arrays are equal to). -/
theorem final8_at (c : Dev nD) (X : S4x4096x1024.Idx → EReal) (W : S1024x1024.Idx → EReal) (B : S1024.Idx → EReal)
    (hX : V c main_arg0 = X) (hW : V c main_v3 = W) (hB : V c main_arg5 = B) (n : Fin 4) (s : Fin 4096) (e : Fin 1024) :
    (dat0 V c).arrAt 8 cfg0.N (ix3 n s e) = (∑ d : Fin 1024, X (ix3 n s d) * W (ix2 d e)) + B (ix1 e) := by
  subst hX hW hB
  exact final8_apply V c n s e

/-! ## Result window 9 -/

/-- WHAT POINT `t` WRITES BACK for window 9 is block `t` of the dense layer of the arrays as the region finds them. -/
theorem flushed9_eq (c : Dev nD) (t : Fin cfg0.N) :
    (dat0 V c).flushed 9 t = ((cfg0.win 9).blk t).view.read (Elt Ideal)
      (dense (V c main_arg0) (V c main_v5) (V c main_arg6)) := by
  show (cfg0.win 9).cut (grid0.coords t) ((dat0 V c).after 9 t) = _
  rw [after0_9]
  unfold out0_9
  rw [View.canon_unit_zero hz3]
  simp only [View.ld_unit_zero (S := S1x1024x1024) hz3, View.ld_unit_zero (S := S1024) hz1, View.ld_unit_zero (S := S1024x1024) hz2]
  have hf := idx_facts0 t
  funext j
  have hj : (j 0).val < 1 := (j 0).isLt
  refine block_of_dense (fun x0 b w => k0_pay1 (k0_pay5 x0 b w)) Pay.k0_pay1_pay5_apply _ _ _ _ _ _ (t.val / 4) (t.val % 4)
    (fun y k h0 h1 h2 => iblk0_0_apply V c t y k h0 h1 h2) (iblk0_3_eq V c t) (iblk0_6_eq V c t) j
    (((cfg0.win 9).blk t).view.emb j) ?_ ?_ ?_
  · show win0_9.index t (0 : Fin 3) * 1 + 1 * (j 0).val = t.val / 4; omega
  · show win0_9.index t (1 : Fin 3) * 1024 + 1 * (j 1).val = t.val % 4 * 1024 + (j 1).val; omega
  · show win0_9.index t (2 : Fin 3) * 1024 + 1 * (j 2).val = (j 2).val; omega

/-- An index of the array is in point `t`'s block iff each coordinate is in the block's range on its axis. -/
theorem mem_blk9 (t : Fin cfg0.N) (i : S4x4096x1024.Idx) :
    i ∈ ((cfg0.win 9).blk t).view.set ↔ ∀ a : Fin 3, win0_9.index t a * S1x1024x1024.size a ≤ (i a).val ∧ (i a).val < win0_9.index t a * S1x1024x1024.size a + S1x1024x1024.size a := by
  show i ∈ ((View.whole main_v6_2).slice (win0_9.rect t)).set ↔ _
  rw [View.set_slice_whole, Rect.mem_set_unit]
  exact Iff.rfl

/-- Every index of the array is in some point's block: row `s` of batch `n` in that of point `4 n + s / 1024`. -/
theorem cover9 (i : S4x4096x1024.Idx) :
    ∃ t : Fin cfg0.N, (cfg0.win 9).flush t = true ∧ i ∈ ((cfg0.win 9).blk t).view.set := by
  have h0 : (i 0).val < 4 := (i 0).isLt
  have h1 : (i 1).val < 4096 := (i 1).isLt
  have h2 : (i 2).val < 1024 := (i 2).isLt
  have hN : cfg0.N = 16 := N_0
  obtain ⟨t, ht⟩ : ∃ t : Fin cfg0.N, t.val = 4 * (i 0).val + (i 1).val / 1024 := ⟨⟨4 * (i 0).val + (i 1).val / 1024, by omega⟩, rfl⟩
  have hf := idx_facts0 t
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 1024 ≤ (i 2).val ∧ (i 2).val < win0_9.index t (2 : Fin 3) * 1024 + 1024; omega

/-- THE ARRAY after the sixteen points: the dense layer of the arrays as the region finds them. -/
theorem final9 (c : Dev nD) :
    (dat0 V c).arrAt 9 cfg0.N = dense (V c main_arg0) (V c main_v5) (V c main_arg6) :=
  (dat0 V c).arrAt_eq_of_cover 9 (dense (V c main_arg0) (V c main_v5) (V c main_arg6)) (fun t _ => flushed9_eq V c t) cover9

/-- Index by index: entry `(n, s, e)` is `∑ d, x (n, s, d) * w (d, e) + b e` of the arrays as the region finds them. -/
theorem final9_apply (c : Dev nD) (n : Fin 4) (s : Fin 4096) (e : Fin 1024) :
    (dat0 V c).arrAt 9 cfg0.N (ix3 n s e) = denseAt (V c main_arg0) (V c main_v5) (V c main_arg6) n s e := by
  rw [final9]; rfl

/-- The same, over names for the three arrays (any functions of the literal index types the arrays are equal to). -/
theorem final9_at (c : Dev nD) (X : S4x4096x1024.Idx → EReal) (W : S1024x1024.Idx → EReal) (B : S1024.Idx → EReal)
    (hX : V c main_arg0 = X) (hW : V c main_v5 = W) (hB : V c main_arg6 = B) (n : Fin 4) (s : Fin 4096) (e : Fin 1024) :
    (dat0 V c).arrAt 9 cfg0.N (ix3 n s e) = (∑ d : Fin 1024, X (ix3 n s d) * W (ix2 d e)) + B (ix1 e) := by
  subst hX hW hB
  exact final9_apply V c n s e

end Cert.KernelIdeal.Hand

end
-- ==== Proof.RefSpec.lean ====
/-
  The reference computation is the specification: read index by index, the composed term of the reference's
  operations is `Spec.G` of the seven argument arrays, with the scale and the start value of the row maximum the
  two float words the program carries.
-/
import proofs.«148255_j55224689492787_2_alg».proof.Proof.Spec
import proofs.«148255_j55224689492787_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Spec

/-- Token arrays, weight matrices and bias rows of the reference, at the ideal values. -/
abbrev XTok : Type := (⟨S4x4096x1024, .f32⟩ : BufTy).Contents (Elt Ideal)
abbrev XMat : Type := (⟨S1024x1024, .f32⟩ : BufTy).Contents (Elt Ideal)
abbrev XRow : Type := (⟨S1024, .f32⟩ : BufTy).Contents (Elt Ideal)

/-! ### The index maps of the operations, at explicit coordinates -/

theorem lidx_v0 (n : Fin 4) (s : Fin 4096) (e d : Fin 1024) : lidx_main_v0 (ix3 n s e) d = ix3 n s d :=
  funext fun a => Fin.ext (by match a with | ⟨0, _⟩ => rfl | ⟨1, _⟩ => rfl | ⟨2, _⟩ => rfl)
theorem ridx_v0 (n : Fin 4) (s : Fin 4096) (e d : Fin 1024) : ridx_main_v0 (ix3 n s e) d = ix2 e d :=
  funext fun a => Fin.ext (by match a with | ⟨0, _⟩ => rfl | ⟨1, _⟩ => rfl)
theorem idx_v1_v2 (n : Fin 4) (s : Fin 4096) (e : Fin 1024) : idx_main_v1 (idx_main_v2 (ix3 n s e)) = ix1 e :=
  funext fun a => Fin.ext (by match a with | ⟨0, _⟩ => rfl)

/-- The first affine map of the features (the queries' projection), at an index. -/
theorem proj_v3 (x0 : XTok) (x1 : XMat) (x4 : XRow) (n : Fin 4) (s : Fin 4096) (e : Fin 1024) :
    val_main_v3 (F := Ideal) x0 x1 x4 (ix3 n s e) = proj (tok x0) (mat x1) (row x4) n s e := by
  rw [val_main_v3_apply, val_main_v0_apply, val_main_v2_apply, val_main_v1_apply]
  simp only [Ideal.addf_def, lidx_v0, ridx_v0, idx_v1_v2]
  rfl

/-- The keys' projection is the same term of its own arguments. -/
theorem proj_v7 (x0 : XTok) (x2 : XMat) (x5 : XRow) (n : Fin 4) (s : Fin 4096) (e : Fin 1024) :
    val_main_v7 (F := Ideal) x0 x2 x5 (ix3 n s e) = proj (tok x0) (mat x2) (row x5) n s e :=
  proj_v3 x0 x2 x5 n s e

/-- The values' projection likewise. -/
theorem proj_v11 (x0 : XTok) (x3 : XMat) (x6 : XRow) (n : Fin 4) (s : Fin 4096) (e : Fin 1024) :
    val_main_v11 (F := Ideal) x0 x3 x6 (ix3 n s e) = proj (tok x0) (mat x3) (row x6) n s e :=
  proj_v3 x0 x3 x6 n s e

/-! ### The scaled scores -/

/-- The scale the program carries: the f32 word `0x3D000000`. -/
abbrev cWord : EReal := Ideal.ofBits .f32 0x3D000000#32
/-- The start value of the row maximum the program carries: the f32 word `0xFF800000`. -/
abbrev ninfWord : EReal := Ideal.ofBits .f32 0xFF800000#32

theorem lidx_v12 (n : Fin 4) (q k : Fin 4096) (d : Fin 1024) : lidx_main_v12 (ix3 n q k) d = ix3 n q d :=
  funext fun a => Fin.ext (by match a with | ⟨0, _⟩ => rfl | ⟨1, _⟩ => rfl | ⟨2, _⟩ => rfl)
theorem ridx_v12 (n : Fin 4) (q k : Fin 4096) (d : Fin 1024) : ridx_main_v12 (ix3 n q k) d = ix3 n k d :=
  funext fun a => Fin.ext (by match a with | ⟨0, _⟩ => rfl | ⟨1, _⟩ => rfl | ⟨2, _⟩ => rfl)

/-- The scores of the reference, as the specification's of the two projections. -/
abbrev refLogit (x0 : XTok) (x1 x2 : XMat) (x4 x5 : XRow) : Score :=
  logit cWord (proj (tok x0) (mat x1) (row x4)) (proj (tok x0) (mat x2) (row x5))

theorem logit_v14 (x0 : XTok) (x1 x2 : XMat) (x4 x5 : XRow) (n : Fin 4) (q k : Fin 4096) :
    val_main_v14 (F := Ideal) x0 x1 x2 x4 x5 (ix3 n q k) = refLogit x0 x1 x2 x4 x5 n q k := by
  rw [val_main_v14_apply, val_main_v12_apply, val_main_v13_apply, val_main_cst_apply]
  simp only [Ideal.mulf_def, Ideal.ofBits_def, lidx_v12, ridx_v12, proj_v3, proj_v7]
  rfl

/-! ### The row maximum -/

theorem reduces_d2 : S4x4096x4096.Reduces [2] S4x4096 := by decide

/-- A row index with the key coordinate put back. -/
theorem lift_d2 (n : Fin 4) (q k : Fin 4096) : reduces_d2.lift (ix2 n q) k = ix3 n q k :=
  funext fun a => Fin.ext (by match a with | ⟨0, _⟩ => rfl | ⟨1, _⟩ => rfl | ⟨2, _⟩ => rfl)

/-- The reference's row maximum — a reduce by `max` from the start word, then the maximum with the start word once
    more — is the specification's fold: the fold is already at least its start value. -/
theorem rowMax_v17 (x0 : XTok) (x1 x2 : XMat) (x4 x5 : XRow) (n : Fin 4) (q : Fin 4096) :
    val_main_v17 (F := Ideal) x0 x1 x2 x4 x5 (ix2 n q) = rowMax ninfWord (refLogit x0 x1 x2 x4 x5) n q := by
  rw [val_main_v17_apply, val_main_v16_apply, val_main_cst_1_apply]
  unfold val_main_v15
  rw [Host.reduce_eq_fold_single FloatOps.maximumf _ _ _ reduces_d2 h_S_]
  have hf : (val_main_v14 (F := Ideal) x0 x1 x2 x4 x5 ∘ reduces_d2.lift (ix2 n q))
      = fun k : Fin 4096 => refLogit x0 x1 x2 x4 x5 n q k :=
    funext fun k => (congrArg (val_main_v14 (F := Ideal) x0 x1 x2 x4 x5) (lift_d2 n q k)).trans (logit_v14 x0 x1 x2 x4 x5 n q k)
  rw [hf, val_main_cst_0_apply]
  exact max_rowMax ninfWord (refLogit x0 x1 x2 x4 x5) n q

/-! ### The exponentials, their row sums, the normalised weights -/

theorem idx_v18_v19 (n : Fin 4) (q k : Fin 4096) : idx_main_v18 (idx_main_v19 (ix3 n q k)) = ix2 n q :=
  funext fun a => Fin.ext (by match a with | ⟨0, _⟩ => rfl | ⟨1, _⟩ => rfl)

/-- The exponentials of the reference: each score less its row's maximum, exponentiated. -/
abbrev refExpo (x0 : XTok) (x1 x2 : XMat) (x4 x5 : XRow) : Score :=
  expo (refLogit x0 x1 x2 x4 x5) (rowMax ninfWord (refLogit x0 x1 x2 x4 x5))

theorem expo_v21 (x0 : XTok) (x1 x2 : XMat) (x4 x5 : XRow) (n : Fin 4) (q k : Fin 4096) :
    val_main_v21 (F := Ideal) x0 x1 x2 x4 x5 (ix3 n q k) = refExpo x0 x1 x2 x4 x5 n q k := by
  rw [val_main_v21_apply, val_main_v20_apply, val_main_v19_apply, val_main_v18_apply]
  simp only [Ideal.hostUnary_exp_def, Ideal.subf_def, idx_v18_v19, logit_v14, rowMax_v17]
  rfl

theorem idx_v22 (n : Fin 4) (q k : Fin 4096) : idx_main_v22 (ix2 n q) k = ix3 n q k :=
  funext fun a => Fin.ext (by match a with | ⟨0, _⟩ => rfl | ⟨1, _⟩ => rfl | ⟨2, _⟩ => rfl)

/-- The reference sums each row from the zero word, which is the real zero. -/
theorem rowSum_v22 (x0 : XTok) (x1 x2 : XMat) (x4 x5 : XRow) (n : Fin 4) (q : Fin 4096) :
    val_main_v22 (F := Ideal) x0 x1 x2 x4 x5 (ix2 n q) = rowSum (refExpo x0 x1 x2 x4 x5) n q := by
  rw [val_main_v22_apply, val_main_cst_2_apply]
  simp only [Ideal.ofBits_def, Ideal.ofBits_zero_f32, zero_add, idx_v22, expo_v21]
  rfl

theorem idx_v23_v24 (n : Fin 4) (q k : Fin 4096) : idx_main_v23 (idx_main_v24 (ix3 n q k)) = ix2 n q :=
  funext fun a => Fin.ext (by match a with | ⟨0, _⟩ => rfl | ⟨1, _⟩ => rfl)

theorem attn_v25 (x0 : XTok) (x1 x2 : XMat) (x4 x5 : XRow) (n : Fin 4) (q k : Fin 4096) :
    val_main_v25 (F := Ideal) x0 x1 x2 x4 x5 (ix3 n q k) = softmax ninfWord (refLogit x0 x1 x2 x4 x5) n q k := by
  rw [val_main_v25_apply, val_main_v24_apply, val_main_v23_apply]
  simp only [Ideal.hostDivf_def, idx_v23_v24, expo_v21, rowSum_v22]
  rfl

/-! ### The result -/

theorem lidx_v26 (n : Fin 4) (q : Fin 4096) (e : Fin 1024) (k : Fin 4096) : lidx_main_v26 (ix3 n q e) k = ix3 n q k :=
  funext fun a => Fin.ext (by match a with | ⟨0, _⟩ => rfl | ⟨1, _⟩ => rfl | ⟨2, _⟩ => rfl)
theorem ridx_v26 (n : Fin 4) (q : Fin 4096) (e : Fin 1024) (k : Fin 4096) : ridx_main_v26 (ix3 n q e) k = ix3 n k e :=
  funext fun a => Fin.ext (by match a with | ⟨0, _⟩ => rfl | ⟨1, _⟩ => rfl | ⟨2, _⟩ => rfl)

/-- The reference's result at an index is the specification of the seven arrays there. -/
theorem ref_eq_G (x0 : XTok) (x1 x2 x3 : XMat) (x4 x5 x6 : XRow) (n : Fin 4) (s : Fin 4096) (e : Fin 1024) :
    val_main_v26 (F := Ideal) x0 x1 x2 x3 x4 x5 x6 (ix3 n s e)
      = G cWord ninfWord (tok x0) (mat x1) (mat x2) (mat x3) (row x4) (row x5) (row x6) n s e := by
  rw [val_main_v26_apply]
  simp only [lidx_v26, ridx_v26, attn_v25, proj_v11]
  rfl

/-- The same as one equation of arrays. -/
theorem ref_eq_G_fun (x0 : XTok) (x1 x2 x3 : XMat) (x4 x5 x6 : XRow) :
    val_main_v26 (F := Ideal) x0 x1 x2 x3 x4 x5 x6
      = fun i => G cWord ninfWord (tok x0) (mat x1) (mat x2) (mat x3) (row x4) (row x5) (row x6) (i 0) (i 1) (i 2) := by
  funext i
  obtain ⟨n, s, e, rfl⟩ : ∃ (n : Fin 4) (s : Fin 4096) (e : Fin 1024), i = ix3 n s e := ⟨i 0, i 1, i 2, eq_ix3 i⟩
  exact ref_eq_G x0 x1 x2 x3 x4 x5 x6 n s e

/-- The term the reference's run leaves in its result is the specification of the arguments' launch contents. -/
theorem res_eq_G (m : (ℓ : Loc nD τ sig) → Buf (Elt Ideal) ℓ) (c : Dev nD) :
    Cert.ReferenceIdeal.Value.res_main_v26 (F := Ideal) m c
      = fun i => G cWord ninfWord (tok (m ((c.tc : Thread nD τ).loc main_arg0)))
          (mat (m ((c.tc : Thread nD τ).loc main_arg1))) (mat (m ((c.tc : Thread nD τ).loc main_arg2)))
          (mat (m ((c.tc : Thread nD τ).loc main_arg3))) (row (m ((c.tc : Thread nD τ).loc main_arg4)))
          (row (m ((c.tc : Thread nD τ).loc main_arg5))) (row (m ((c.tc : Thread nD τ).loc main_arg6))) (i 0) (i 1) (i 2) := by
  rw [val_main_v26_eq]
  exact ref_eq_G_fun _ _ _ _ _ _ _

end Cert.ReferenceIdeal.RefValue

end
-- ==== Proof.KernelRun.lean ====
/- The idealized kernel's run read as the specification: the three projection arrays are the specification's projections
   (the kernel contracts with the transposed weights the host lines prepared), and the attention region's result is the
   specification's attention of them. -/
import proofs.«148255_j55224689492787_2_alg».proof.Proof.TwoRegions
import proofs.«148255_j55224689492787_2_alg».proof.Proof.HostSide
import proofs.«148255_j55224689492787_2_alg».proof.Proof.AttnFinal
import proofs.«148255_j55224689492787_2_alg».proof.Proof.ProjFinal
import proofs.«148255_j55224689492787_2_alg».proof.Proof.Spec
import proofs.«148255_j55224689492787_2_alg».proof.Proof.RefSpec

noncomputable section

namespace Cert.KernelIdeal.Hand

open Cert.KernelIdeal Cert.KernelIdeal.Gen Idealize.ShloMosaic Idealize.ShloMosaic.TcCoe Idealize.SL.Sem Cert.Spec
open Idealize.ShloMosaic.ValueIdx

variable (m : (ℓ : Loc nD τ sig) → Buf (Elt Ideal) ℓ) (ρ : Dev nD → PrngReg)

/-- A projection array in the specification's form: the kernel contracts with the transposed weight matrix. -/
theorem tok_proj (A x : S4x4096x1024.Idx → EReal) (w W : S1024x1024.Idx → EReal) (b : S1024.Idx → EReal)
    (hA : ∀ (n : Fin 4) (s : Fin 4096) (e : Fin 1024), A (ix3 n s e) = (∑ d : Fin 1024, x (ix3 n s d) * w (ix2 d e)) + b (ix1 e))
    (hw : ∀ d e : Fin 1024, w (ix2 d e) = W (ix2 e d)) :
    tok A = proj (tok x) (mat W) (row b) := by
  funext n s e
  show A (ix3 n s e) = (∑ d : Fin 1024, x (ix3 n s d) * W (ix2 e d)) + b (ix1 e)
  rw [hA]; simp only [hw]

theorem q_eq (c : Dev nD) : tok (V2 m ρ c main_v6_0) = proj (tok (m ((c.tc : Thread nD τ).loc main_arg0))) (mat (m ((c.tc : Thread nD τ).loc main_arg1))) (row (m ((c.tc : Thread nD τ).loc main_arg4))) :=
  tok_proj _ _ (V1 m ρ c main_v1) _ _ (fun n s e => by
      show W2 m ρ c (Proc.devRef .tc (Pipeline.arrRef spec0 7)) (ix3 n s e) = _
      rw [W2_arr m ρ c 7]
      exact final7_at (V1 m ρ) c _ _ _ (V1_main_arg0 m ρ c) rfl (V1_main_arg4 m ρ c) n s e)
    (V1_main_v1 m ρ c)

theorem k_eq (c : Dev nD) : tok (V2 m ρ c main_v6_1) = proj (tok (m ((c.tc : Thread nD τ).loc main_arg0))) (mat (m ((c.tc : Thread nD τ).loc main_arg2))) (row (m ((c.tc : Thread nD τ).loc main_arg5))) :=
  tok_proj _ _ (V1 m ρ c main_v3) _ _ (fun n s e => by
      show W2 m ρ c (Proc.devRef .tc (Pipeline.arrRef spec0 8)) (ix3 n s e) = _
      rw [W2_arr m ρ c 8]
      exact final8_at (V1 m ρ) c _ _ _ (V1_main_arg0 m ρ c) rfl (V1_main_arg5 m ρ c) n s e)
    (V1_main_v3 m ρ c)

theorem v_eq (c : Dev nD) : tok (V2 m ρ c main_v6_2) = proj (tok (m ((c.tc : Thread nD τ).loc main_arg0))) (mat (m ((c.tc : Thread nD τ).loc main_arg3))) (row (m ((c.tc : Thread nD τ).loc main_arg6))) :=
  tok_proj _ _ (V1 m ρ c main_v5) _ _ (fun n s e => by
      show W2 m ρ c (Proc.devRef .tc (Pipeline.arrRef spec0 9)) (ix3 n s e) = _
      rw [W2_arr m ρ c 9]
      exact final9_at (V1 m ρ) c _ _ _ (V1_main_arg0 m ρ c) rfl (V1_main_arg6 m ρ c) n s e)
    (V1_main_v5 m ρ c)

/-- The result array at the end: the specification of the seven arguments. -/
theorem W3_main_v7 (c : Dev nD) : W3 m ρ c (Proc.devRef .tc main_v7)
    = (fun i => G (Ideal.ofBits .f32 0x3D000000#32) (Ideal.ofBits .f32 0xFF800000#32) (tok (m ((c.tc : Thread nD τ).loc main_arg0))) (mat (m ((c.tc : Thread nD τ).loc main_arg1))) (mat (m ((c.tc : Thread nD τ).loc main_arg2)))
        (mat (m ((c.tc : Thread nD τ).loc main_arg3))) (row (m ((c.tc : Thread nD τ).loc main_arg4))) (row (m ((c.tc : Thread nD τ).loc main_arg5))) (row (m ((c.tc : Thread nD τ).loc main_arg6))) (i 0) (i 1) (i 2)) := by
  show W3 m ρ c (Proc.devRef .tc (Pipeline.arrRef spec1 1)) = _
  rw [W3_arr m ρ c 1, attn_final]
  funext i
  show out (softmax _ (logit _ (tok (V2 m ρ c main_v6_0)) (tok (V2 m ρ c main_v6_1)))) (tok (V2 m ρ c main_v6_2)) (i 0) (i 1) (i 2) = _
  rw [q_eq, k_eq, v_eq]; rfl

/-- Every weakly fair execution of the idealized kernel terminates without a fault; its result array ends at the
    specification of its arguments, and its arguments end unchanged. -/
theorem kernel_run (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v7)
          = (fun i => G (Ideal.ofBits .f32 0x3D000000#32) (Ideal.ofBits .f32 0xFF800000#32) (tok (m ((c.tc : Thread nD τ).loc main_arg0))) (mat (m ((c.tc : Thread nD τ).loc main_arg1))) (mat (m ((c.tc : Thread nD τ).loc main_arg2)))
              (mat (m ((c.tc : Thread nD τ).loc main_arg3))) (row (m ((c.tc : Thread nD τ).loc main_arg4))) (row (m ((c.tc : Thread nD τ).loc main_arg5))) (row (m ((c.tc : Thread nD τ).loc main_arg6))) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v7 (by decide))).trans (W3_main_v7 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

end Cert.KernelIdeal.Hand

end
-- ==== Proof.RefRun.lean ====
/-
  The reference's run, stated with the specification: from any memory, every weakly fair execution of the reference
  terminates with its result array equal to `Spec.G` of the arguments' launch contents, index by index, and the seven
  arguments unchanged.  Dropping the result gives the frame claim of the reference.
-/
import proofs.«148255_j55224689492787_2_alg».proof.Defs
import proofs.«148255_j55224689492787_2_alg».proof.Proof.Gen.Pre_finite_inputs
import proofs.«148255_j55224689492787_2_alg».proof.Proof.Gen.ReferenceIdeal.Run
import proofs.«148255_j55224689492787_2_alg».proof.Proof.RefSpec

noncomputable section

namespace Cert.ReferenceIdeal.RefValue

open Cert.ReferenceIdeal Cert.ReferenceIdeal.Gen Idealize.ShloMosaic Idealize.ShloMosaic.TcCoe Idealize.SL.Sem Idealize.ShloMosaic.StableHlo Cert.Spec

/-- The reference terminates without a fault and leaves its arguments as they were. -/
theorem frame_ri : Cert.frame_ReferenceIdeal := fun m ρ _ =>
  (θ_run Cert.ReferenceIdeal.defs _ _).mono (fun _ h c => (h c).2) (Cert.ReferenceIdeal.Value.run (F := Ideal) m ρ)

/-- The reference's run with its result read as the specification of the arguments. -/
theorem ref_run (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩ (fun r => ∀ c : Dev nD,
      r.2.mem ((c.tc : Thread nD τ).loc main_v26)
          = (fun i => G cWord ninfWord (tok (m' ((c.tc : Thread nD τ).loc main_arg0))) (mat (m' ((c.tc : Thread nD τ).loc main_arg1))) (mat (m' ((c.tc : Thread nD τ).loc main_arg2)))
              (mat (m' ((c.tc : Thread nD τ).loc main_arg3))) (row (m' ((c.tc : Thread nD τ).loc main_arg4))) (row (m' ((c.tc : Thread nD τ).loc main_arg5))) (row (m' ((c.tc : Thread nD τ).loc main_arg6))) (i 0) (i 1) (i 2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)) :=
  (θ_run Cert.ReferenceIdeal.defs _ _).mono (fun _ h c => ⟨(h c).1.trans (res_eq_G m' c), (h c).2⟩)
    (Cert.ReferenceIdeal.Value.run (F := Ideal) m' ρ')

end Cert.ReferenceIdeal.RefValue

end
-- ==== Proof.lean ====
/- Self-attention over a batch of token sequences: three affine maps of the features (queries, keys, values), the scaled
   scores of the queries against the keys, a softmax along each row of scores, and the sum of the values weighted by it.
   On the extended reals the kernel and the reference are one function, `Cert.Spec.G`, of the seven argument arrays, index
   by index; each program terminates without a fault and leaves its arguments as they were. -/
import proofs.«148255_j55224689492787_2_alg».proof.Defs
import proofs.«148255_j55224689492787_2_alg».proof.Proof.Gen.Kernel
import proofs.«148255_j55224689492787_2_alg».proof.Proof.Gen.KernelIdeal
import proofs.«148255_j55224689492787_2_alg».proof.Proof.Gen.ReferenceIdeal
import proofs.«148255_j55224689492787_2_alg».proof.Proof.Gen.Pre_finite_inputs
import proofs.«148255_j55224689492787_2_alg».proof.Proof.TwoRegionsK
import proofs.«148255_j55224689492787_2_alg».proof.Proof.TwoRegions
import proofs.«148255_j55224689492787_2_alg».proof.Proof.KernelRun
import proofs.«148255_j55224689492787_2_alg».proof.Proof.RefRun

noncomputable section

namespace Cert.Proof

open Idealize.ShloMosaic Idealize.SL.Sem Cert.Spec Cert.ReferenceIdeal.RefValue

/-- The kernel at the bit-exact values terminates and leaves its arguments unchanged. -/
theorem frame_k : Cert.frame_Kernel := fun m ρ _ => Cert.Kernel.Hand.frame m ρ

/-- So does the kernel at the ideal values. -/
theorem frame_ki : Cert.frame_KernelIdeal := fun m ρ _ => Cert.KernelIdeal.Hand.frame m ρ

/-- From memories that agree on the seven arguments, the kernel and the reference both end with their result arrays at
    the specification of those arguments: the same array. -/
theorem algebraic : Cert.algebraic_KernelIdeal_ReferenceIdeal := by
  intro m ρ m' ρ' _ hagree
  refine ⟨fun c i => G cWord ninfWord (tok (m ((c.tc : Thread Cert.KernelIdeal.nD Cert.KernelIdeal.τ).loc Cert.KernelIdeal.main_arg0))) (mat (m ((c.tc : Thread Cert.KernelIdeal.nD Cert.KernelIdeal.τ).loc Cert.KernelIdeal.main_arg1))) (mat (m ((c.tc : Thread Cert.KernelIdeal.nD Cert.KernelIdeal.τ).loc Cert.KernelIdeal.main_arg2)))
      (mat (m ((c.tc : Thread Cert.KernelIdeal.nD Cert.KernelIdeal.τ).loc Cert.KernelIdeal.main_arg3))) (row (m ((c.tc : Thread Cert.KernelIdeal.nD Cert.KernelIdeal.τ).loc Cert.KernelIdeal.main_arg4))) (row (m ((c.tc : Thread Cert.KernelIdeal.nD Cert.KernelIdeal.τ).loc Cert.KernelIdeal.main_arg5))) (row (m ((c.tc : Thread Cert.KernelIdeal.nD Cert.KernelIdeal.τ).loc Cert.KernelIdeal.main_arg6))) (i 0) (i 1) (i 2),
    Cert.KernelIdeal.Hand.kernel_run m ρ, ?_⟩
  refine (θ_run Cert.ReferenceIdeal.defs _ _).mono (fun _ h c => ⟨(h c).1.trans ?_, (h c).2⟩) (ref_run m' ρ')
  rw [(hagree c).1, (hagree c).2.1, (hagree c).2.2.1, (hagree c).2.2.2.1, (hagree c).2.2.2.2.1, (hagree c).2.2.2.2.2.1,
    (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
